-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x6156 : Shape := ⟨2, ![2048, 6156]⟩
abbrev S3x6156 : Shape := ⟨2, ![3, 6156]⟩
abbrev S3 : Shape := ⟨1, ![3]⟩
abbrev S6156x6156 : Shape := ⟨2, ![6156, 6156]⟩
abbrev S3x6159 : Shape := ⟨2, ![3, 6159]⟩
abbrev S_ : Shape := ⟨0, ![]⟩

class Facts : Prop where
  bcast_S_S2048x6156 : S_.BroadcastsInDim S2048x6156 (![] : Fin 0 → Fin S2048x6156.rank)
  reducesTo_S2048x6156_S_d0_1 : S2048x6156.ReducesTo [0, 1] S_
  h_S_ : 0 < S_.numel
  bcast_S_S3x6156 : S_.BroadcastsInDim S3x6156 (![] : Fin 0 → Fin S3x6156.rank)
  reducesTo_S3x6156_S_d0_1 : S3x6156.ReducesTo [0, 1] S_
  bcast_S_S3 : S_.BroadcastsInDim S3 (![] : Fin 0 → Fin S3.rank)
  reducesTo_S3_S_d0 : S3.ReducesTo [0] S_
  bcast_S_S6156x6156 : S_.BroadcastsInDim S6156x6156 (![] : Fin 0 → Fin S6156x6156.rank)
  reducesTo_S6156x6156_S_d0_1 : S6156x6156.ReducesTo [0, 1] S_
  bcast_S_S3x6159 : S_.BroadcastsInDim S3x6159 (![] : Fin 0 → Fin S3x6159.rank)
  reducesTo_S3x6159_S_d0_1 : S3x6159.ReducesTo [0, 1] S_

variable [Facts]

def fn_part1 {F : FTy → Type} [FloatOps F] (main_arg4 : FVec F S3x6159 .f32) (main_arg5 : FVec F S3 .f32) (main_v13 : IVec S_ 1) (main_v16 : IVec S6156x6156 1) : IVec S_ 1 :=
  let main_c_5 : IVec S_ 1 := constantI S_ 1 1#1
  let main_v17 : IVec S_ 1 := (fun x v => Host.reduce IntOp.andi x v reducesTo_S6156x6156_S_d0_1 h_S_) main_v16 main_c_5
  let main_v18 : IVec S_ 1 := andi main_v13 main_v17
  let main_v19 : FVec F S3x6159 .f32 := Host.absf main_arg4
  let main_cst_6 : FVec F S_ .f32 := constant S_ .f32 0x7F800000#32
  let main_v20 : FVec F S3x6159 .f32 := broadcastInDim S3x6159 ![] bcast_S_S3x6159 main_cst_6
  let main_v21 : IVec S3x6159 1 := cmpf .olt main_v19 main_v20
  let main_c_7 : IVec S_ 1 := constantI S_ 1 1#1
  let main_v22 : IVec S_ 1 := (fun x v => Host.reduce IntOp.andi x v reducesTo_S3x6159_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S2048x6156 .f32) (main_arg1 : FVec F S3x6156 .f32) (main_arg2 : FVec F S3 .f32) (main_arg3 : FVec F S6156x6156 .f32) (main_arg4 : FVec F S3x6159 .f32) (main_arg5 : FVec F S3 .f32) : IVec S_ 1 :=
  let main_v0 : FVec F S2048x6156 .f32 := Host.absf main_arg0
  let main_cst : FVec F S_ .f32 := constant S_ .f32 0x7F800000#32
  let main_v1 : FVec F S2048x6156 .f32 := broadcastInDim S2048x6156 ![] bcast_S_S2048x6156 main_cst
  let main_v2 : IVec S2048x6156 1 := cmpf .olt main_v0 main_v1
  let main_c : IVec S_ 1 := constantI S_ 1 1#1
  let main_v3 : IVec S_ 1 := (fun x v => Host.reduce IntOp.andi x v reducesTo_S2048x6156_S_d0_1 h_S_) main_v2 main_c
  let main_v4 : FVec F S3x6156 .f32 := Host.absf main_arg1
  let main_cst_0 : FVec F S_ .f32 := constant S_ .f32 0x7F800000#32
  let main_v5 : FVec F S3x6156 .f32 := broadcastInDim S3x6156 ![] bcast_S_S3x6156 main_cst_0
  let main_v6 : IVec S3x6156 1 := cmpf .olt main_v4 main_v5
  let main_c_1 : IVec S_ 1 := constantI S_ 1 1#1
  let main_v7 : IVec S_ 1 := (fun x v => Host.reduce IntOp.andi x v reducesTo_S3x6156_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S6156x6156 .f32 := Host.absf main_arg3
  let main_cst_4 : FVec F S_ .f32 := constant S_ .f32 0x7F800000#32
  let main_v15 : FVec F S6156x6156 .f32 := broadcastInDim S6156x6156 ![] bcast_S_S6156x6156 main_cst_4
  let main_v16 : IVec S6156x6156 1 := cmpf .olt main_v14 main_v15
  fn_part1 (F := F) main_arg4 main_arg5 main_v13 main_v16
-- ==== Kernel.lean ====
abbrev S2048x6156 : Shape := ⟨2, ![2048, 6156]⟩
abbrev S3x6156 : Shape := ⟨2, ![3, 6156]⟩
abbrev S3 : Shape := ⟨1, ![3]⟩
abbrev S6156x6156 : Shape := ⟨2, ![6156, 6156]⟩
abbrev S3x6159 : Shape := ⟨2, ![3, 6159]⟩
abbrev S_ : Shape := ⟨0, ![]⟩
abbrev S2048x6400 : Shape := ⟨2, ![2048, 6400]⟩
abbrev S6400x6400 : Shape := ⟨2, ![6400, 6400]⟩
abbrev S1024x640 : Shape := ⟨2, ![1024, 640]⟩
abbrev S1280x640 : Shape := ⟨2, ![1280, 640]⟩
abbrev S1024x1280 : Shape := ⟨2, ![1024, 1280]⟩
abbrev S640x1280 : Shape := ⟨2, ![640, 1280]⟩
abbrev S6156x3 : Shape := ⟨2, ![6156, 3]⟩
abbrev S2048x3 : Shape := ⟨2, ![2048, 3]⟩
abbrev S1x3 : Shape := ⟨2, ![1, 3]⟩
abbrev S3x3 : Shape := ⟨2, ![3, 3]⟩
abbrev S3x6400 : Shape := ⟨2, ![3, 6400]⟩
abbrev S6400x3 : Shape := ⟨2, ![6400, 3]⟩

abbrev nBuf : Space → Nat
  | .hbm => 33
  | .vmem => 9
  | .smem => 0
  | _ => 0

abbrev bufTy : (tb : Table) → Fin (tcTables nBuf tb) → BufTy
  | .hbm, ⟨0, _⟩ => ⟨S2048x6156, .f32⟩
  | .hbm, ⟨1, _⟩ => ⟨S3x6156, .f32⟩
  | .hbm, ⟨2, _⟩ => ⟨S3, .f32⟩
  | .hbm, ⟨3, _⟩ => ⟨S6156x6156, .f32⟩
  | .hbm, ⟨4, _⟩ => ⟨S3x6159, .f32⟩
  | .hbm, ⟨5, _⟩ => ⟨S3, .f32⟩
  | .hbm, ⟨6, _⟩ => ⟨S_, .i32⟩
  | .hbm, ⟨7, _⟩ => ⟨S_, .f32⟩
  | .hbm, ⟨8, _⟩ => ⟨S2048x6400, .f32⟩
  | .hbm, ⟨9, _⟩ => ⟨S_, .i32⟩
  | .hbm, ⟨10, _⟩ => ⟨S_, .f32⟩
  | .hbm, ⟨11, _⟩ => ⟨S6400x6400, .f32⟩
  | .hbm, ⟨12, _⟩ => ⟨S2048x6400, .bf16⟩
  | .hbm, ⟨13, _⟩ => ⟨S6400x6400, .bf16⟩
  | .hbm, ⟨14, _⟩ => ⟨S2048x6400, .f32⟩
  | .hbm, ⟨15, _⟩ => ⟨S6156x3, .f32⟩
  | .hbm, ⟨16, _⟩ => ⟨S2048x3, .f32⟩
  | .hbm, ⟨17, _⟩ => ⟨S1x3, .f32⟩
  | .hbm, ⟨18, _⟩ => ⟨S2048x3, .f32⟩
  | .hbm, ⟨19, _⟩ => ⟨S2048x3, .f32⟩
  | .hbm, ⟨20, _⟩ => ⟨S3x3, .f32⟩
  | .hbm, ⟨21, _⟩ => ⟨S3x6156, .f32⟩
  | .hbm, ⟨22, _⟩ => ⟨S_, .i32⟩
  | .hbm, ⟨23, _⟩ => ⟨S_, .f32⟩
  | .hbm, ⟨24, _⟩ => ⟨S3x6400, .f32⟩
  | .hbm, ⟨25, _⟩ => ⟨S3x3, .f32⟩
  | .hbm, ⟨26, _⟩ => ⟨S2048x3, .f32⟩
  | .hbm, ⟨27, _⟩ => ⟨S6400x3, .f32⟩
  | .hbm, ⟨28, _⟩ => ⟨S2048x3, .f32⟩
  | .hbm, ⟨29, _⟩ => ⟨S2048x3, .f32⟩
  | .hbm, ⟨30, _⟩ => ⟨S1x3, .f32⟩
  | .hbm, ⟨31, _⟩ => ⟨S2048x3, .f32⟩
  | .hbm, ⟨32, _⟩ => ⟨S2048x3, .f32⟩
  | .local _ .vmem, ⟨0, _⟩ => ⟨S1024x640, .bf16⟩
  | .local _ .vmem, ⟨1, _⟩ => ⟨S1024x640, .bf16⟩
  | .local _ .vmem, ⟨2, _⟩ => ⟨S1280x640, .bf16⟩
  | .local _ .vmem, ⟨3, _⟩ => ⟨S1280x640, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | .local _ .vmem, ⟨7, _⟩ => ⟨S1024x1280, .f32⟩
  | .local _ .vmem, ⟨8, _⟩ => ⟨S1024x1280, .f32⟩
  | _, _ => ⟨S2048x6156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 5, 10], ![false, false, false]⟩

def k0_cond2 (i : grid0.Coords) : BitVec 1 :=
  let arg2 : BitVec 32 := BitVec.ofNat 32 (i 2).val
  let c9_i32 : BitVec 32 := 9#32
  let v14 : BitVec 1 := Scalar.cmpi .eq arg2 c9_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S2048x6156_S2048x6400_000_02440 : S2048x6156.Pads (![0, 0] : Fin 2 → Nat) ![0, 244] ![0, 0] S2048x6400
  h_S_ : 0 < S_.numel
  pads_S6156x6156_S6400x6400_02440_02440 : S6156x6156.Pads (![0, 0] : Fin 2 → Nat) ![244, 244] ![0, 0] S6400x6400
  bitsLt_bf16_f32 : FTy.bits .bf16 < FTy.bits .f32
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S1280x640_S1280x640_0_0 : ∀ a, (![0, 0] : Fin 2 → Nat) a + S1280x640.size a ≤ S1280x640.size a
  h_S1280x640 : 0 < S1280x640.numel
  shapeCasts_S1280x640_S1280x640 : S1280x640.ShapeCasts S1280x640
  transposes_S1280x640_p1_0_S640x1280 : S1280x640.Transposes [1, 0] S640x1280
  transposes_S3x6156_S6156x3_1_0 : S3x6156.Transposes [1, 0] S6156x3
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  slices_S3x6159_S3x3_0_0 : S3x6159.Slices ![0, 0] S3x3
  slices_S3x6159_S3x6156_0_3 : S3x6159.Slices ![0, 3] S3x6156
  pads_S3x6156_S3x6400_000_02440 : S3x6156.Pads (![0, 0] : Fin 2 → Nat) ![0, 244] ![0, 0] S3x6400
  transposes_S3x3_S3x3_1_0 : S3x3.Transposes [1, 0] S3x3
  transposes_S3x6400_S6400x3_1_0 : S3x6400.Transposes [1, 0] S6400x3
  dot_S1024x640_S640x1280_S1024x1280_1_0_0_1_n_n_wf : DotDims.WF S1024x640 S640x1280 S1024x1280 [1] [0] [0] [1] [] []
  dot_S2048x6156_S6156x3_S2048x3_1_0_0_1_n_n_wf : DotDims.WF S2048x6156 S6156x3 S2048x3 [1] [0] [0] [1] [] []
  dot_S2048x3_S3x3_S2048x3_1_0_0_1_n_n_wf : DotDims.WF S2048x3 S3x3 S2048x3 [1] [0] [0] [1] [] []
  dot_S2048x6400_S6400x3_S2048x3_1_0_0_1_n_n_wf : DotDims.WF S2048x6400 S6400x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x640.size a ≤ S2048x6400.size a
  hwx0_0 : ∀ i : grid0.Coords, EltTy.bits .bf16 = 32 ∨ (Rect.block (s := S2048x6400) S1024x640.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x640.size a ≤ S6400x6400.size a
  hwx0_1 : ∀ i : grid0.Coords, EltTy.bits .bf16 = 32 ∨ (Rect.block (s := S6400x6400) S1280x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S2048x6400.size a
  hwx0_2 : ∀ i : grid0.Coords, EltTy.bits .f32 = 32 ∨ (Rect.block (s := S2048x6400) S1024x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1280.size a ≤ S2048x6400.size a
  hwx0_3 : ∀ i : grid0.Coords, EltTy.bits .f32 = 32 ∨ (Rect.block (s := S2048x6400) S1024x1280.size (cc0_transform_3 i) (hinb0_3 i)).WholeWords (EltTy.packing .f32)

variable [Facts₀]

def dot_S1024x640_S640x1280_S1024x1280_1_0_0_1_n_n : DotDims S1024x640 S640x1280 S1024x1280 where
  lhsContracting := [1]
  rhsContracting := [0]
  lhsNonContracting := [0]
  rhsNonContracting := [1]
  lhsBatch := []
  rhsBatch := []
  wf := dot_S1024x640_S640x1280_S1024x1280_1_0_0_1_n_n_wf
def dot_S2048x6156_S6156x3_S2048x3_1_0_0_1_n_n : DotDims S2048x6156 S6156x3 S2048x3 where
  lhsContracting := [1]
  rhsContracting := [0]
  lhsNonContracting := [0]
  rhsNonContracting := [1]
  lhsBatch := []
  rhsBatch := []
  wf := dot_S2048x6156_S6156x3_S2048x3_1_0_0_1_n_n_wf
def dot_S2048x3_S3x3_S2048x3_1_0_0_1_n_n : DotDims S2048x3 S3x3 S2048x3 where
  lhsContracting := [1]
  rhsContracting := [0]
  lhsNonContracting := [0]
  rhsNonContracting := [1]
  lhsBatch := []
  rhsBatch := []
  wf := dot_S2048x3_S3x3_S2048x3_1_0_0_1_n_n_wf
def dot_S2048x6400_S6400x3_S2048x3_1_0_0_1_n_n : DotDims S2048x6400 S6400x3 S2048x3 where
  lhsContracting := [1]
  rhsContracting := [0]
  lhsNonContracting := [0]
  rhsNonContracting := [1]
  lhsBatch := []
  rhsBatch := []
  wf := dot_S2048x6400_S6400x3_S2048x3_1_0_0_1_n_n_wf

abbrev win0_0 : Pipeline.Window sig grid0 :=
  Pipeline.Window.ofSpec (Memref.whole main_v2) S1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x6156 : Shape := ⟨2, ![2048, 6156]⟩
abbrev S3x6156 : Shape := ⟨2, ![3, 6156]⟩
abbrev S3 : Shape := ⟨1, ![3]⟩
abbrev S6156x6156 : Shape := ⟨2, ![6156, 6156]⟩
abbrev S3x6159 : Shape := ⟨2, ![3, 6159]⟩
abbrev S6156x3 : Shape := ⟨2, ![6156, 3]⟩
abbrev S2048x3 : Shape := ⟨2, ![2048, 3]⟩
abbrev S1x3 : Shape := ⟨2, ![1, 3]⟩
abbrev S2048x6159 : Shape := ⟨2, ![2048, 6159]⟩
abbrev S6159x3 : Shape := ⟨2, ![6159, 3]⟩

abbrev nBuf : Space → Nat
  | .hbm => 20
  | .vmem => 0
  | .smem => 0
  | _ => 0

abbrev bufTy : (tb : Table) → Fin (tcTables nBuf tb) → BufTy
  | .hbm, ⟨0, _⟩ => ⟨S2048x6156, .f32⟩
  | .hbm, ⟨1, _⟩ => ⟨S3x6156, .f32⟩
  | .hbm, ⟨2, _⟩ => ⟨S3, .f32⟩
  | .hbm, ⟨3, _⟩ => ⟨S6156x6156, .f32⟩
  | .hbm, ⟨4, _⟩ => ⟨S3x6159, .f32⟩
  | .hbm, ⟨5, _⟩ => ⟨S3, .f32⟩
  | .hbm, ⟨6, _⟩ => ⟨S6156x3, .f32⟩
  | .hbm, ⟨7, _⟩ => ⟨S2048x3, .f32⟩
  | .hbm, ⟨8, _⟩ => ⟨S1x3, .f32⟩
  | .hbm, ⟨9, _⟩ => ⟨S2048x3, .f32⟩
  | .hbm, ⟨10, _⟩ => ⟨S2048x3, .f32⟩
  | .hbm, ⟨11, _⟩ => ⟨S6156x6156, .f32⟩
  | .hbm, ⟨12, _⟩ => ⟨S2048x6156, .f32⟩
  | .hbm, ⟨13, _⟩ => ⟨S2048x6156, .f32⟩
  | .hbm, ⟨14, _⟩ => ⟨S2048x6159, .f32⟩
  | .hbm, ⟨15, _⟩ => ⟨S6159x3, .f32⟩
  | .hbm, ⟨16, _⟩ => ⟨S2048x3, .f32⟩
  | .hbm, ⟨17, _⟩ => ⟨S1x3, .f32⟩
  | .hbm, ⟨18, _⟩ => ⟨S2048x3, .f32⟩
  | .hbm, ⟨19, _⟩ => ⟨S2048x3, .f32⟩
  | _, _ => ⟨S2048x6156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S3x6156_S6156x3_1_0 : S3x6156.Transposes [1, 0] S6156x3
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  transposes_S6156x6156_S6156x6156_1_0 : S6156x6156.Transposes [1, 0] S6156x6156
  concatenates_S2048x3_S2048x6156_S2048x6159_d1 : Shape.Concatenates [S2048x3, S2048x6156] S2048x6159 1
  transposes_S3x6159_S6159x3_1_0 : S3x6159.Transposes [1, 0] S6159x3
  dot_S2048x6156_S6156x3_S2048x3_1_0_0_1_n_n_wf : DotDims.WF S2048x6156 S6156x3 S2048x3 [1] [0] [0] [1] [] []
  dot_S2048x6156_S6156x6156_S2048x6156_1_0_0_1_n_n_wf : DotDims.WF S2048x6156 S6156x6156 S2048x6156 [1] [0] [0] [1] [] []
  dot_S2048x6159_S6159x3_S2048x3_1_0_0_1_n_n_wf : DotDims.WF S2048x6159 S6159x3 S2048x3 [1] [0] [0] [1] [] []

variable [Facts₀]

def dot_S2048x6156_S6156x3_S2048x3_1_0_0_1_n_n : DotDims S2048x6156 S6156x3 S2048x3 where
  lhsContracting := [1]
  rhsContracting := [0]
  lhsNonContracting := [0]
  rhsNonContracting := [1]
  lhsBatch := []
  rhsBatch := []
  wf := dot_S2048x6156_S6156x3_S2048x3_1_0_0_1_n_n_wf
def dot_S2048x6156_S6156x6156_S2048x6156_1_0_0_1_n_n : DotDims S2048x6156 S6156x6156 S2048x6156 where
  lhsContracting := [1]
  rhsContracting := [0]
  lhsNonContracting := [0]
  rhsNonContracting := [1]
  lhsBatch := []
  rhsBatch := []
  wf := dot_S2048x6156_S6156x6156_S2048x6156_1_0_0_1_n_n_wf
def dot_S2048x6159_S6159x3_S2048x3_1_0_0_1_n_n : DotDims S2048x6159 S6159x3 S2048x3 where
  lhsContracting := [1]
  rhsContracting := [0]
  lhsNonContracting := [0]
  rhsNonContracting := [1]
  lhsBatch := []
  rhsBatch := []
  wf := dot_S2048x6159_S6159x3_S2048x3_1_0_0_1_n_n_wf

class Facts : Prop extends Facts₀ where

variable [Facts]
-- ==== Proof.Spec.lean ====
/-
  The mathematics of the certificate, stated once over plain arrays of extended reals and with no program in sight.

  The model is a logistic regression with pairwise feature interactions. For a batch `x` of 2048 rows of 6156 features:
    * the linear head            lin(b, c)   = (∑ₖ x(b,k) · lw(c,k)) + lb(c)                 (3 columns),
    * the interactions           inter(b, j) = x(b,j) · ∑ₖ x(b,k) · w(j,k)                   (6156 columns),
    * the two laid side by side  comb(b, ·)  = lin(b, 0..2), inter(b, 0..6155)              (6159 columns),
    * the result                 G(b, o)     = (∑_c comb(b,c) · fw(o,c)) + fb(o).
  That is what the reference computes (`G`).

  The kernel computes the same numbers in another arrangement (`K`): `x` and `w` are padded with zeros from 6156 to 6400
  columns (and `w` also to 6400 rows), the padded interactions `ipad` are computed over the padded arrays, and the last
  product is split into the three columns of the linear head against the first three columns of `fw`, plus the padded
  interactions against the remaining columns of `fw` padded with zeros. Every entry the padding adds is a product with
  an exact zero, so nothing changes: `K = G` on all extended reals (no finiteness is needed: `0 · a = 0` for every `a`,
  and only commutativity and associativity of `+` are used to regroup the sums).
-/
import Idealize.ShloMosaic.PureOps.Ideal
import Idealize.ShloMosaic.Lib.ValueIdx

noncomputable section

open scoped BigOperators

namespace Cert.Interact

open Idealize.ShloMosaic Idealize.ShloMosaic.ValueIdx

/-- A matrix of extended reals with `a` rows and `b` columns. -/
abbrev Arr2 (a b : Nat) : Type := (⟨2, ![a, b]⟩ : Shape).Idx → EReal
/-- A vector of extended reals with `a` entries. -/
abbrev Arr1 (a : Nat) : Type := (⟨1, ![a]⟩ : Shape).Idx → EReal

/-- The linear head: row `b` of `x` against row `c` of `lw`, plus the bias. -/
def lin (x : Arr2 2048 6156) (lw : Arr2 3 6156) (lb : Arr1 3) (b : Fin 2048) (c : Fin 3) : EReal :=
  (∑ k : Fin 6156, x (ix2 b k) * lw (ix2 c k)) + lb (ix1 c)

/-- The interactions: feature `j` of row `b` times that row against row `j` of `w`. -/
def inter (x : Arr2 2048 6156) (w : Arr2 6156 6156) (b : Fin 2048) (j : Fin 6156) : EReal :=
  x (ix2 b j) * ∑ k : Fin 6156, x (ix2 b k) * w (ix2 j k)

/-- The linear head's three columns followed by the 6156 interactions. -/
def comb (x : Arr2 2048 6156) (lw : Arr2 3 6156) (lb : Arr1 3) (w : Arr2 6156 6156) (b : Fin 2048) (c : Fin 6159) : EReal :=
  if h : c.val < 3 then lin x lw lb b ⟨c.val, h⟩ else inter x w b ⟨c.val - 3, by have := c.isLt; omega⟩

/-- THE RESULT, as the reference arranges it. -/
def G (x : Arr2 2048 6156) (lw : Arr2 3 6156) (lb : Arr1 3) (w : Arr2 6156 6156) (fw : Arr2 3 6159) (fb : Arr1 3) : Arr2 2048 3 :=
  fun i => (∑ c : Fin 6159, comb x lw lb w (i 0) c * fw (ix2 (i 1) c)) + fb (ix1 (i 1))

/-- `x` with 244 zero columns behind. -/
def xpad (x : Arr2 2048 6156) : Arr2 2048 6400 := fun i =>
  if h : (i 1).val < 6156 then x (ix2 (i 0) ⟨(i 1).val, h⟩) else 0

/-- `w` with 244 zero rows below and 244 zero columns behind. -/
def wpad (w : Arr2 6156 6156) : Arr2 6400 6400 := fun i =>
  if h : (i 0).val < 6156 ∧ (i 1).val < 6156 then w (ix2 ⟨(i 0).val, h.1⟩ ⟨(i 1).val, h.2⟩) else 0

/-- The interactions over the padded arrays (6400 columns; the last 244 are products with a zero). -/
def ipad (x : Arr2 2048 6156) (w : Arr2 6156 6156) : Arr2 2048 6400 := fun i =>
  xpad x i * ∑ k : Fin 6400, xpad x (ix2 (i 0) k) * wpad w (ix2 (i 1) k)

/-- Columns 3 … 6158 of `fw`, with 244 zero columns behind. -/
def fwpad (fw : Arr2 3 6159) : Arr2 3 6400 := fun i =>
  if h : (i 1).val < 6156 then fw (ix2 (i 0) ⟨3 + (i 1).val, by omega⟩) else 0

/-- The last layer as the kernel arranges it, over ANY array `P` standing for the padded interactions: the linear head
    against the first three columns of `fw`, plus `P` against the padded rest of `fw`, plus the bias. -/
def Kof (P : Arr2 2048 6400) (x : Arr2 2048 6156) (lw : Arr2 3 6156) (lb : Arr1 3) (fw : Arr2 3 6159) (fb : Arr1 3) : Arr2 2048 3 :=
  fun i => ((∑ c : Fin 3, lin x lw lb (i 0) c * fw (ix2 (i 1) ⟨c.val, by have := c.isLt; omega⟩))
    + ∑ j : Fin 6400, P (ix2 (i 0) j) * fwpad fw (ix2 (i 1) j)) + fb (ix1 (i 1))

/-- THE RESULT, as the kernel arranges it. -/
def K (x : Arr2 2048 6156) (lw : Arr2 3 6156) (lb : Arr1 3) (w : Arr2 6156 6156) (fw : Arr2 3 6159) (fb : Arr1 3) : Arr2 2048 3 :=
  Kof (ipad x w) x lw lb fw fb

end Cert.Interact

end
-- ==== Proof.LibPadSum.lean ====
/-
  Finite sums over zero-padded index ranges and over ranges cut into blocks, in any commutative additive monoid.

    * `sum_fin_split`: a sum over `N = a + b` indices is the sum over the first `a` plus the sum over the last `b`;
    * `sum_fin_of_tail_zero`: a sum over `Fin N` whose terms vanish from index `n ≤ N` on (a contraction over an axis
      padded with zeros from `n` to `N`) is the sum of its first `n` terms;
    * `sum_range_mul_succ`: a sum over the first `m (k + 1)` naturals is the sum over the first `m k` plus the block of
      `m` terms at positions `m k + l` (a contraction accumulated block by block).
  Nothing but commutativity and associativity of `+` is used, so the lemmas hold on the extended reals.
-/
import Mathlib.Algebra.BigOperators.Fin
import Mathlib.Algebra.BigOperators.Intervals

open scoped BigOperators

namespace Cert.Interact

/-- A sum over `N = a + b` indices is the sum over the first `a` plus the sum over the last `b`. -/
theorem sum_fin_split {M : Type*} [AddCommMonoid M] {a b N : Nat} (h : N = a + b) (g : Fin N → M) :
    ∑ c : Fin N, g c
      = (∑ c : Fin a, g ⟨c.val, by have := c.isLt; omega⟩) + ∑ j : Fin b, g ⟨a + j.val, by have := j.isLt; omega⟩ := by
  subst h
  rw [Fin.sum_univ_add]
  rfl

/-- A sum whose terms vanish from index `n` on is the sum of its first `n` terms. -/
theorem sum_fin_of_tail_zero {M : Type*} [AddCommMonoid M] {n N : Nat} (h : n ≤ N) (f : Fin N → M)
    (hf : ∀ i : Fin N, n ≤ i.val → f i = 0) :
    ∑ i : Fin N, f i = ∑ i : Fin n, f (Fin.castLE h i) := by
  obtain ⟨d, rfl⟩ := Nat.exists_eq_add_of_le h
  rw [sum_fin_split rfl f]
  have tail : ∑ j : Fin d, f ⟨n + j.val, by have := j.isLt; omega⟩ = 0 :=
    Finset.sum_eq_zero fun j _ => hf _ (Nat.le_add_right n j.val)
  rw [tail, add_zero]
  rfl

/-- One more block of `m` terms: the sum over the first `m (k + 1)` naturals is the sum over the first `m k` plus the
    `m` terms at positions `m k + l`. -/
theorem sum_range_mul_succ {M : Type*} [AddCommMonoid M] (m k : ℕ) (h : ℕ → M) :
    ∑ κ ∈ Finset.range (m * (k + 1)), h κ
      = (∑ κ ∈ Finset.range (m * k), h κ) + ∑ l : Fin m, h (m * k + l.val) := by
  rw [Nat.mul_succ, Finset.sum_range_add, Finset.sum_range (fun x => h (m * k + x))]

end Cert.Interact
-- ==== Proof.Algebra.lean ====
/-
  The kernel's arrangement of the result equals the reference's, as a statement about arrays of extended reals.

  Only three facts about the extended reals are used: `+` is commutative and associative (to cut a finite sum in
  two: the sum lemmas of the module imported first), `a * 0 = 0` and `0 * a = 0` for every `a`, infinite or not. No distributivity and no cancellation.
-/
import proofs.«143620_j20169166422772_2_alg».proof.Proof.Spec
import proofs.«143620_j20169166422772_2_alg».proof.Proof.LibPadSum
import Mathlib.Algebra.BigOperators.Fin

noncomputable section

open scoped BigOperators

namespace Cert.Interact

open Idealize.ShloMosaic Idealize.ShloMosaic.ValueIdx

/-! ## The padded arrays, inside and outside the original extent -/

theorem le6156 : 6156 ≤ 6400 := by decide

/-- Inside the original columns the padded `x` is `x`. -/
theorem xpad_inside (x : Arr2 2048 6156) (b : Fin 2048) (j : Fin 6156) :
    xpad x (ix2 b (Fin.castLE le6156 j)) = x (ix2 b j) := by
  unfold xpad
  rw [dif_pos (show ((ix2 b (Fin.castLE le6156 j)) 1).val < 6156 from j.isLt)]
  rfl

/-- Beyond the original columns the padded `x` is zero. -/
theorem xpad_outside (x : Arr2 2048 6156) (b : Fin 2048) (k : Fin 6400) (hk : 6156 ≤ k.val) :
    xpad x (ix2 b k) = 0 := by
  unfold xpad
  rw [dif_neg (show ¬ ((ix2 b k) 1).val < 6156 from Nat.not_lt.mpr hk)]

/-- Inside the original rows and columns the padded `w` is `w`. -/
theorem wpad_inside (w : Arr2 6156 6156) (j k : Fin 6156) :
    wpad w (ix2 (Fin.castLE le6156 j) (Fin.castLE le6156 k)) = w (ix2 j k) := by
  unfold wpad
  rw [dif_pos (show ((ix2 (Fin.castLE le6156 j) (Fin.castLE le6156 k)) 0).val < 6156
      ∧ ((ix2 (Fin.castLE le6156 j) (Fin.castLE le6156 k)) 1).val < 6156 from ⟨j.isLt, k.isLt⟩)]
  rfl

/-- Inside the original columns the padded tail of `fw` is `fw` three columns further. -/
theorem fwpad_inside (fw : Arr2 3 6159) (o : Fin 3) (j : Fin 6156) :
    fwpad fw (ix2 o (Fin.castLE le6156 j)) = fw (ix2 o ⟨3 + j.val, by have := j.isLt; omega⟩) := by
  unfold fwpad
  rw [dif_pos (show ((ix2 o (Fin.castLE le6156 j)) 1).val < 6156 from j.isLt)]
  rfl

/-- Beyond the original columns the padded tail of `fw` is zero. -/
theorem fwpad_outside (fw : Arr2 3 6159) (o : Fin 3) (k : Fin 6400) (hk : 6156 ≤ k.val) :
    fwpad fw (ix2 o k) = 0 := by
  unfold fwpad
  rw [dif_neg (show ¬ ((ix2 o k) 1).val < 6156 from Nat.not_lt.mpr hk)]

/-- Inside the original columns the padded interactions are the interactions: the contraction over the 6400 padded
    columns loses its last 244 terms (each has the factor `xpad = 0`), and what remains is term by term the original. -/
theorem ipad_inside (x : Arr2 2048 6156) (w : Arr2 6156 6156) (b : Fin 2048) (j : Fin 6156) :
    ipad x w (ix2 b (Fin.castLE le6156 j)) = inter x w b j := by
  show xpad x (ix2 b (Fin.castLE le6156 j))
      * ∑ k : Fin 6400, xpad x (ix2 b k) * wpad w (ix2 (Fin.castLE le6156 j) k)
    = x (ix2 b j) * ∑ k : Fin 6156, x (ix2 b k) * w (ix2 j k)
  rw [xpad_inside, sum_fin_of_tail_zero le6156 _ (fun k hk => by rw [xpad_outside x b k hk, zero_mul])]
  congr 1
  exact Finset.sum_congr rfl fun k _ => by rw [xpad_inside, wpad_inside]

/-! ## The two arrangements agree -/

/-- The reference's last contraction, cut after the three columns of the linear head. -/
theorem sum_comb (x : Arr2 2048 6156) (lw : Arr2 3 6156) (lb : Arr1 3) (w : Arr2 6156 6156) (fw : Arr2 3 6159)
    (b : Fin 2048) (o : Fin 3) :
    ∑ c : Fin 6159, comb x lw lb w b c * fw (ix2 o c)
      = (∑ c : Fin 3, lin x lw lb b c * fw (ix2 o ⟨c.val, by have := c.isLt; omega⟩))
        + ∑ j : Fin 6156, inter x w b j * fw (ix2 o ⟨3 + j.val, by have := j.isLt; omega⟩) := by
  rw [sum_fin_split (show 6159 = 3 + 6156 by norm_num) (fun c => comb x lw lb w b c * fw (ix2 o c))]
  have h1 : ∀ c : Fin 3, comb x lw lb w b ⟨c.val, by have := c.isLt; omega⟩ = lin x lw lb b c := fun c => by
    unfold comb
    rw [dif_pos (show (⟨c.val, by have := c.isLt; omega⟩ : Fin 6159).val < 3 from c.isLt)]
  have h2 : ∀ j : Fin 6156, comb x lw lb w b ⟨3 + j.val, by have := j.isLt; omega⟩ = inter x w b j := fun j => by
    unfold comb
    rw [dif_neg (show ¬ (⟨3 + j.val, by have := j.isLt; omega⟩ : Fin 6159).val < 3 from Nat.not_lt.mpr (Nat.le_add_right 3 j.val))]
    exact congrArg (inter x w b) (Fin.ext (show 3 + j.val - 3 = j.val by omega))
  exact congrArg₂ (· + ·) (Finset.sum_congr rfl fun c _ => by rw [h1 c]) (Finset.sum_congr rfl fun j _ => by rw [h2 j])

/-- The kernel's contraction over the 6400 padded columns is the contraction over the 6156 interactions. -/
theorem sum_ipad (x : Arr2 2048 6156) (w : Arr2 6156 6156) (fw : Arr2 3 6159) (b : Fin 2048) (o : Fin 3) :
    ∑ j : Fin 6400, ipad x w (ix2 b j) * fwpad fw (ix2 o j)
      = ∑ j : Fin 6156, inter x w b j * fw (ix2 o ⟨3 + j.val, by have := j.isLt; omega⟩) := by
  rw [sum_fin_of_tail_zero le6156 (fun j : Fin 6400 => ipad x w (ix2 b j) * fwpad fw (ix2 o j))
    (fun k hk => by rw [fwpad_outside fw o k hk, mul_zero])]
  exact Finset.sum_congr rfl fun j _ => by rw [ipad_inside, fwpad_inside]

/-- The kernel's arrangement at row `b`, column `o`. -/
theorem K_apply (x : Arr2 2048 6156) (lw : Arr2 3 6156) (lb : Arr1 3) (w : Arr2 6156 6156) (fw : Arr2 3 6159)
    (fb : Arr1 3) (b : Fin 2048) (o : Fin 3) :
    K x lw lb w fw fb (ix2 b o)
      = ((∑ c : Fin 3, lin x lw lb b c * fw (ix2 o ⟨c.val, by have := c.isLt; omega⟩))
        + ∑ j : Fin 6400, ipad x w (ix2 b j) * fwpad fw (ix2 o j)) + fb (ix1 o) := rfl

/-- The reference's arrangement at row `b`, column `o`. -/
theorem G_apply (x : Arr2 2048 6156) (lw : Arr2 3 6156) (lb : Arr1 3) (w : Arr2 6156 6156) (fw : Arr2 3 6159)
    (fb : Arr1 3) (b : Fin 2048) (o : Fin 3) :
    G x lw lb w fw fb (ix2 b o) = (∑ c : Fin 6159, comb x lw lb w b c * fw (ix2 o c)) + fb (ix1 o) := rfl

theorem K_eq_G (x : Arr2 2048 6156) (lw : Arr2 3 6156) (lb : Arr1 3) (w : Arr2 6156 6156) (fw : Arr2 3 6159)
    (fb : Arr1 3) : K x lw lb w fw fb = G x lw lb w fw fb := by
  funext i
  obtain ⟨b, o, rfl⟩ : ∃ (b : Fin 2048) (o : Fin 3), i = ix2 b o := ⟨i 0, i 1, eq_ix2 i⟩
  rw [K_apply, G_apply, sum_comb, sum_ipad]

end Cert.Interact

end
-- ==== Proof.RefIsG.lean ====
/-
  The reference program computes `G`.

  Read at row `b`, column `o`, the reference's last addition is the contraction of its 6159-column intermediate with
  the transposed last-layer weights, plus the bias broadcast over the rows. The intermediate is the concatenation along
  the columns of the linear head (3 columns: `x` against the transposed `lw`, plus the broadcast `lb`) and of the
  interactions (6156 columns: `x` times its contraction with the transposed `w`); a column below 3 falls in the first
  piece and a column from 3 on in the second, three columns to the left, which is the case split of `comb`. Every step
  is a reading of one operation at an index; each transpose swaps the two coordinates, so `lwᵀ(k, c) = lw(c, k)` and so on.
-/
import proofs.«143620_j20169166422772_2_alg».proof.Proof.Gen.ReferenceIdeal.Read
import proofs.«143620_j20169166422772_2_alg».proof.Proof.Spec

noncomputable section

open scoped BigOperators

namespace Cert.ReferenceIdeal.RefValue

open Cert.ReferenceIdeal Cert.ReferenceIdeal.Gen Cert.ReferenceIdeal.Read Cert.Interact
open Idealize.ShloMosaic Idealize.ShloMosaic.TcCoe Idealize.SL.Sem Idealize.ShloMosaic.StableHlo Idealize.ShloMosaic.ValueIdx

/-- The linear head: the product of `x` with the transposed weights, plus the bias broadcast over the rows. -/
theorem v4_apply (x0 : (⟨S2048x6156, .f32⟩ : BufTy).Contents (Elt Ideal)) (x1 : (⟨S3x6156, .f32⟩ : BufTy).Contents (Elt Ideal)) (x2 : (⟨S3, .f32⟩ : BufTy).Contents (Elt Ideal)) (b : Fin 2048) (c : Fin 3) :
    val_main_v4 (F := Ideal) x0 x1 x2 (ix2 b c) = lin x0 x1 x2 b c := by
  rw [val_main_v4_apply, val_main_v1_apply, val_main_v3_apply, val_main_v2_apply]
  unfold lin
  refine congrArg₂ (· + ·) (Finset.sum_congr rfl fun k _ => ?_) (congrArg x2 ?_)
  · rw [val_main_v0_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The interactions: `x` times its product with the transposed interaction weights. -/
theorem v7_apply (x0 : (⟨S2048x6156, .f32⟩ : BufTy).Contents (Elt Ideal)) (x3 : (⟨S6156x6156, .f32⟩ : BufTy).Contents (Elt Ideal)) (b : Fin 2048) (j : Fin 6156) :
    val_main_v7 (F := Ideal) x0 x3 (ix2 b j) = inter x0 x3 b j := by
  rw [val_main_v7_apply, val_main_v6_apply]
  unfold inter
  refine congrArg₂ (· * ·) rfl (Finset.sum_congr rfl fun k _ => ?_)
  rw [val_main_v5_apply]
  refine congrArg₂ (· * ·) (congrArg x0 ?_) (congrArg x3 ?_)
  · exact funext fun a => Fin.ext (by match a with | ⟨0, _⟩ => rfl | ⟨1, _⟩ => rfl)
  · exact funext fun a => Fin.ext (by match a with | ⟨0, _⟩ => rfl | ⟨1, _⟩ => rfl)

/-- The two laid side by side: a column below 3 reads the linear head, a column from 3 on reads the interactions
    three columns to the left. -/
theorem v8_apply (x0 : (⟨S2048x6156, .f32⟩ : BufTy).Contents (Elt Ideal)) (x1 : (⟨S3x6156, .f32⟩ : BufTy).Contents (Elt Ideal)) (x2 : (⟨S3, .f32⟩ : BufTy).Contents (Elt Ideal)) (x3 : (⟨S6156x6156, .f32⟩ : BufTy).Contents (Elt Ideal)) (b : Fin 2048) (c : Fin 6159) :
    val_main_v8 (F := Ideal) x0 x1 x2 x3 (ix2 b c) = comb x0 x1 x2 x3 b c := by
  unfold val_main_v8 comb
  by_cases h : c.val < 3
  · rw [dif_pos h, ← v4_apply x0 x1 x2 b ⟨c.val, h⟩]
    exact concatenate_pair_apply_left (t := S2048x6159) (s₁ := S2048x3) (s₂ := S2048x6156) (1 : Fin 2) _ _
      concatenates_S2048x3_S2048x6156_S2048x6159_d1 (ix2 b c) rfl (ix2 b (⟨c.val, h⟩ : Fin 3)) (by
        intro a
        match a with
        | ⟨0, _⟩ => rfl
        | ⟨1, _⟩ => rfl)
  · rw [dif_neg h, ← v7_apply x0 x3 b ⟨c.val - 3, by have := c.isLt; omega⟩]
    exact concatenate_pair_apply_right (t := S2048x6159) (s₁ := S2048x3) (s₂ := S2048x6156) (1 : Fin 2) _ _
      concatenates_S2048x3_S2048x6156_S2048x6159_d1 (ix2 b c) rfl rfl
      (ix2 b (⟨c.val - 3, by have := c.isLt; omega⟩ : Fin 6156)) (by
        intro a ha
        match a with
        | ⟨0, _⟩ => rfl
        | ⟨1, _⟩ => exact absurd rfl ha) (by
        show c.val - 3 + 3 = c.val; omega)

/-- The reference's result is `G`. -/
theorem result_eq (x0 : (⟨S2048x6156, .f32⟩ : BufTy).Contents (Elt Ideal)) (x1 : (⟨S3x6156, .f32⟩ : BufTy).Contents (Elt Ideal)) (x2 : (⟨S3, .f32⟩ : BufTy).Contents (Elt Ideal)) (x3 : (⟨S6156x6156, .f32⟩ : BufTy).Contents (Elt Ideal)) (x4 : (⟨S3x6159, .f32⟩ : BufTy).Contents (Elt Ideal)) (x5 : (⟨S3, .f32⟩ : BufTy).Contents (Elt Ideal)) :
    Cert.ReferenceIdeal.Read.val_main_v13 (F := Ideal) x0 x1 x2 x3 x4 x5 = Cert.Interact.G x0 x1 x2 x3 x4 x5 := by
  funext i
  obtain ⟨b, o, rfl⟩ : ∃ (b : Fin 2048) (o : Fin 3), i = ix2 b o := ⟨i 0, i 1, eq_ix2 i⟩
  rw [val_main_v13_apply, val_main_v10_apply, val_main_v12_apply, val_main_v11_apply]
  show _ = (∑ c : Fin 6159, comb x0 x1 x2 x3 b c * x4 (ix2 o c)) + x5 (ix1 o)
  refine congrArg₂ (· + ·) (Finset.sum_congr rfl fun k _ => ?_) (congrArg x5 ?_)
  · rw [val_main_v9_apply, ← v8_apply x0 x1 x2 x3 b k]
    refine congrArg₂ (· * ·) (congrArg (val_main_v8 (F := Ideal) x0 x1 x2 x3) ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

end Cert.ReferenceIdeal.RefValue

end
-- ==== Proof.Cases.lean ====
/-
  What one step of the kernel body leaves behind, as values.

  The body keeps a running block `acc` (1024 × 1280) across the grid's third axis. At a step it
    * first resets `acc` to the zero block when the step is the first of its run of ten,
    * then replaces `acc` by `acc + xk · wkᵀ`, the product of the step's block of `x` (1024 × 640) with the transpose
      of its block of `w` (1280 × 640),
    * and, when the step is the last of its run of ten, writes `xj ∘ acc` (entry by entry) to the output block.
  So there are three kinds of step: a first step leaves `0 + xk · wkᵀ`, a middle step `acc + xk · wkᵀ`, a last step
  the same and additionally the output `xj ∘ (acc + xk · wkᵀ)`. Each lemma below says that the contents the body's
  covering stores leave are these terms of the loaded blocks (the loads read whole buffers, so a load is the block).
-/
import proofs.«143620_j20169166422772_2_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.ShloMosaic.Tactic Idealize.SL.Sem
open Cert.KernelIdeal Cert.KernelIdeal.Gen

variable {F : FTy → Type} [FloatOps F]

/-- The origin of a rank-2 block. -/
theorem hz : (![0, 0] : Fin 2 → Nat) = fun _ => 0 := funext fun a => by fin_cases a <;> rfl

/-- A MIDDLE step leaves in the accumulator what it held plus the step's product. -/
theorem scratch_B (c : Dev nD) (i : grid0.Coords) (arg3 : Memref sig .tc .vmem S1024x640 .bf16) (harg3 : arg3.IsWhole) (arg4 : Memref sig .tc .vmem S1280x640 .bf16) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬cond0_0 i) (hc1 : ¬cond0_1 i)
    (x0 : Vec F S1024x640 .bf16) (x1 : Vec F S1280x640 .bf16) (x2 : Vec F S1024x1280 .f32) (xs0 : Vec F S1024x1280 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread, harg5.read_unread, View.ld_unit_zero (S := S1024x1280) hz, View.ld_unit_zero (S := S1024x640) hz, View.ld_unit_zero (S := S1280x640) hz]

/-- A LAST step leaves the same in the accumulator … -/
theorem scratch_C (c : Dev nD) (i : grid0.Coords) (arg3 : Memref sig .tc .vmem S1024x640 .bf16) (harg3 : arg3.IsWhole) (arg4 : Memref sig .tc .vmem S1280x640 .bf16) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬cond0_0 i) (hc1 : cond0_1 i)
    (x0 : Vec F S1024x640 .bf16) (x1 : Vec F S1280x640 .bf16) (x2 : Vec F S1024x1280 .f32) (xs0 : Vec F S1024x1280 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, harg5.read_unread, View.ld_unit_zero (S := S1024x1280) hz, View.ld_unit_zero (S := S1024x640) hz, View.ld_unit_zero (S := S1280x640) hz]

/-- … and writes to the output block the entrywise product of the block of `x` it multiplies by with the accumulator it
    has just completed. -/
theorem out_C (c : Dev nD) (i : grid0.Coords) (arg3 : Memref sig .tc .vmem S1024x640 .bf16) (harg3 : arg3.IsWhole) (arg4 : Memref sig .tc .vmem S1280x640 .bf16) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬cond0_0 i) (hc1 : cond0_1 i)
    (x0 : Vec F S1024x640 .bf16) (x1 : Vec F S1280x640 .bf16) (x2 : Vec F S1024x1280 .f32) (xs0 : Vec F S1024x1280 .f32) :
    out0_C_3 c i arg3 harg3 arg4 harg4 arg5 harg5 arg6 harg6 arg7 harg7 hc0 hc1 x0 x1 x2 xs0 = k0_pay3 x2 (k0_pay2 xs0 x0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1280) _ hz]
  simp only [View.readAt_eq_ld, harg7.read_unread, harg3.read_unread, harg4.read_unread, harg5.read_unread, View.ld_unit_zero (S := S1024x1280) hz, View.ld_unit_zero (S := S1024x640) hz, View.ld_unit_zero (S := S1280x640) hz]

/-- A FIRST step leaves the step's product added to the zero block it has just stored. -/
theorem scratch_A (c : Dev nD) (i : grid0.Coords) (arg3 : Memref sig .tc .vmem S1024x640 .bf16) (harg3 : arg3.IsWhole) (arg4 : Memref sig .tc .vmem S1280x640 .bf16) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : cond0_0 i) (hc1 : ¬cond0_1 i)
    (x0 : Vec F S1024x640 .bf16) (x1 : Vec F S1280x640 .bf16) (x2 : Vec F S1024x1280 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1280) hz, View.readCov_unit_zero (S := S1024x1280) _ hz]
  simp only [View.readAt_eq_ld, harg7.read_unread, harg3.read_unread, harg4.read_unread, harg5.read_unread, View.ld_unit_zero (S := S1024x1280) hz, View.ld_unit_zero (S := S1024x640) hz, View.ld_unit_zero (S := S1280x640) hz]

end Cert.KernelIdeal.Cases

end
-- ==== Proof.Steps.lean ====
/-
  The running block after each grid point, one step at a time.

  The grid's 100 points are visited in order; a point's position modulo 10 is its place on the accumulated axis.
  After a point that starts a run of ten the running block is `0 + (that point's product)`; after any other point it
  is what the point before left plus that point's product; and a point that ends a run writes to the output block the
  entrywise product of its block of `x` with the running block it has just completed. These are the three kinds of
  step of the body, read at the blocks the point is handed.
-/
import proofs.«143620_j20169166422772_2_alg».proof.Proof.Cases

set_option maxRecDepth 16384

noncomputable section

namespace Cert.KernelIdeal.Steps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- After the FIRST point of a run: the zero block plus the point's product. -/
theorem first (c : Dev nD) (t : Fin cfg0.N) (h0 : t.val % 10 = 0) (h1 : ¬t.val % 10 = 9) :
    (outsAt0 m c t.val t.isLt).2 = k0_pay2 k0_pay1 (iblk m c 0 t) (iblk m c 1 t) := by
  have e := Cases.scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)
  rw [outsAt0_A m c t h0 h1]
  dsimp only
  exact e

/-- After a MIDDLE point: what the point before left plus the point's product. -/
theorem middle (c : Dev nD) (t : Fin cfg0.N) (h0 : ¬t.val % 10 = 0) (h1 : ¬t.val % 10 = 9) :
    (outsAt0 m c t.val t.isLt).2 = k0_pay2 (outsAt0 m c (t.val - 1) (Nat.lt_of_le_of_lt (Nat.sub_le _ _) t.isLt)).2 (iblk m c 0 t) (iblk m c 1 t) := by
  have e := Cases.scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2
  rw [outsAt0_B m c t h0 h1]
  dsimp only
  exact e

/-- After the LAST point of a run: the same … -/
theorem last (c : Dev nD) (t : Fin cfg0.N) (h0 : ¬t.val % 10 = 0) (h1 : t.val % 10 = 9) :
    (outsAt0 m c t.val t.isLt).2 = k0_pay2 (outsAt0 m c (t.val - 1) (Nat.lt_of_le_of_lt (Nat.sub_le _ _) t.isLt)).2 (iblk m c 0 t) (iblk m c 1 t) := by
  have e := Cases.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  rw [outsAt0_C m c t h0 h1]
  dsimp only
  exact e

/-- … and the output block is the point's block of `x` times, entry by entry, the completed running block. -/
theorem last_out (c : Dev nD) (t : Fin cfg0.N) (h0 : ¬t.val % 10 = 0) (h1 : t.val % 10 = 9) :
    (outsAt0 m c t.val t.isLt).1 = k0_pay3 (iblk m c 2 t) (k0_pay2 (outsAt0 m c (t.val - 1) (Nat.lt_of_le_of_lt (Nat.sub_le _ _) t.isLt)).2 (iblk m c 0 t) (iblk m c 1 t)) := by
  have e := Cases.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  rw [outsAt0_C m c t h0 h1]
  dsimp only
  exact e

end Cert.KernelIdeal.Steps

end
-- ==== Proof.Payload.lean ====
/-
  The body's three stored values, entry by entry, over the extended reals.

    * the reset value is the zero block;
    * the accumulation `acc + xk · wkᵀ` at entry (p, q) is `acc(p, q) + ∑ₗ xk(p, l) · wk(q, l)`, the sum over the 640
      columns the two blocks share (the matrix unit's product onto a zero accumulator is the plain sum of products, and
      the transposed block of `w` read at (l, q) is the block at (q, l));
    * the output value at an entry is the product of the two operands' entries.
-/
import proofs.«143620_j20169166422772_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.TcCoe Idealize.ShloMosaic.ValueIdx
open Cert.KernelIdeal Cert.KernelIdeal.Gen

theorem lhs_0 (i : S1024x1280.Idx) (k : dot_S1024x640_S640x1280_S1024x1280_1_0_0_1_n_n.contr.Idx) : (dot_S1024x640_S640x1280_S1024x1280_1_0_0_1_n_n.lhsIdx i k 0).val = (i 0).val := by
  unfold DotDims.lhsIdx
  rw [dif_neg (show ¬(0 : Fin S1024x640.rank) ∈ dot_S1024x640_S640x1280_S1024x1280_1_0_0_1_n_n.lhsBatch by decide), dif_pos (show (0 : Fin S1024x640.rank) ∈ dot_S1024x640_S640x1280_S1024x1280_1_0_0_1_n_n.lhsNonContracting by decide)]
  rfl
theorem lhs_1 (i : S1024x1280.Idx) (k : dot_S1024x640_S640x1280_S1024x1280_1_0_0_1_n_n.contr.Idx) : (dot_S1024x640_S640x1280_S1024x1280_1_0_0_1_n_n.lhsIdx i k 1).val = (k ⟨0, by decide⟩).val :=
  dot_S1024x640_S640x1280_S1024x1280_1_0_0_1_n_n.lhsIdx_val_of_single rfl i k
theorem rhs_0 (i : S1024x1280.Idx) (k : dot_S1024x640_S640x1280_S1024x1280_1_0_0_1_n_n.contr.Idx) : (dot_S1024x640_S640x1280_S1024x1280_1_0_0_1_n_n.rhsIdx i k 0).val = (k ⟨0, by decide⟩).val :=
  dot_S1024x640_S640x1280_S1024x1280_1_0_0_1_n_n.rhsIdx_val_of_single rfl i k
theorem rhs_1 (i : S1024x1280.Idx) (k : dot_S1024x640_S640x1280_S1024x1280_1_0_0_1_n_n.contr.Idx) : (dot_S1024x640_S640x1280_S1024x1280_1_0_0_1_n_n.rhsIdx i k 1).val = (i 1).val := by
  unfold DotDims.rhsIdx
  rw [dif_neg (show ¬(1 : Fin S640x1280.rank) ∈ dot_S1024x640_S640x1280_S1024x1280_1_0_0_1_n_n.rhsBatch by decide), dif_pos (show (1 : Fin S640x1280.rank) ∈ dot_S1024x640_S640x1280_S1024x1280_1_0_0_1_n_n.rhsNonContracting by decide)]
  rfl

theorem pay1_apply (j : S1024x1280.Idx) : k0_pay1 (F := Ideal) j = 0 := by
  unfold k0_pay1
  rw [shapeCast_self]
  exact Ideal.ofBits_zero_f32

theorem pay3_apply (v17 v19 : Vec Ideal S1024x1280 .f32) (j : S1024x1280.Idx) :
    k0_pay3 (F := Ideal) v17 v19 j = v17 j * v19 j := by
  unfold k0_pay3
  rw [shapeCast_self]
  rfl

theorem pay2_apply (v3 : Vec Ideal S1024x1280 .f32) (v4 : Vec Ideal S1024x640 .bf16) (v6 : Vec Ideal S1280x640 .bf16) (p : Fin 1024) (q : Fin 1280) :
    k0_pay2 (F := Ideal) v3 v4 v6 (ix2 p q) = v3 (ix2 p q) + ∑ l : Fin 640, v4 (ix2 p l) * v6 (ix2 q l) := by
  unfold k0_pay2
  simp only [shapeCast_self]
  refine (addf_apply _ _ _).trans (congrArg (v3 (ix2 p q) + ·) ?_)
  simp only [matmul]
  rw [Ideal.matmul_constant_zero_apply, ← Equiv.sum_comp (contrEquiv1 dot_S1024x640_S640x1280_S1024x1280_1_0_0_1_n_n 640 rfl rfl).symm]
  refine Finset.sum_congr rfl fun l _ => ?_
  have hk := contrEquiv1_symm_val dot_S1024x640_S640x1280_S1024x1280_1_0_0_1_n_n 640 rfl rfl l
  have el : dot_S1024x640_S640x1280_S1024x1280_1_0_0_1_n_n.lhsIdx (ix2 p q) ((contrEquiv1 dot_S1024x640_S640x1280_S1024x1280_1_0_0_1_n_n 640 rfl rfl).symm l) = ix2 p l := funext fun a => Fin.ext (by
    match a with
    | ⟨0, _⟩ => exact lhs_0 (ix2 p q) _
    | ⟨1, _⟩ => exact (lhs_1 (ix2 p q) _).trans hk)
  rw [el]
  refine congrArg (v4 (ix2 p l) * ·) ?_
  refine transpose_apply [1, 0] v6 transposes_S1280x640_p1_0_S640x1280 _ (ix2 q l) (fun b => ?_)
  match b with
  | ⟨0, _⟩ =>
    show l.val = _
    exact ((rhs_0 (ix2 p q) _).trans hk).symm
  | ⟨1, _⟩ =>
    show q.val = _
    exact (rhs_1 (ix2 p q) _).symm

end Cert.KernelIdeal.Payload

end
-- ==== Proof.Cover.lean ====
/-
  The output window of the region covers its array.

  The grid has 2 × 5 × 10 = 100 points; point `t` has row block `t / 50`, column block `(t / 10) % 5` and
  contraction step `t % 10`. The output's blocks are 1024 × 1280 and are indexed by (row block, column block); a block
  is written back at the last contraction step. An index `(r, c)` of the 2048 × 6400 output lies in the block of the
  point `50 (r / 1024) + 10 (c / 1280) + 9`, which is a point where the block is written back.
-/
import proofs.«143620_j20169166422772_2_alg».proof.Proof.Gen.KernelIdeal.Frame
import Idealize.ShloMosaic.Lib.Pipeline.Value

set_option maxRecDepth 16384

noncomputable section

namespace Cert.KernelIdeal.Cover

open Cert.KernelIdeal Cert.KernelIdeal.Gen Idealize.ShloMosaic Idealize.ShloMosaic.TcCoe Idealize.SL.Sem

/-- The block indices of the four windows at each point of the grid, decided over its 100 points. -/
theorem idx_facts : ∀ t : Fin cfg0.N, win0_0.index t (0 : Fin 2) = t.val / 50
    ∧ win0_0.index t (1 : Fin 2) = t.val % 10
    ∧ win0_1.index t (0 : Fin 2) = (t.val / 10) % 5
    ∧ win0_1.index t (1 : Fin 2) = t.val % 10
    ∧ win0_2.index t (0 : Fin 2) = t.val / 50
    ∧ win0_2.index t (1 : Fin 2) = (t.val / 10) % 5
    ∧ win0_3.index t (0 : Fin 2) = t.val / 50
    ∧ win0_3.index t (1 : Fin 2) = (t.val / 10) % 5 :=
  (by decide +kernel : ∀ t : Fin grid0.N, _)

/-- An index of the output array is in point `t`'s block iff each coordinate is in the block's range on its axis. -/
theorem mem_out_block (t : Fin cfg0.N) (i : S2048x6400.Idx) :
    i ∈ ((cfg0.win 3).blk t).view.set ↔ ∀ a : Fin 2, win0_3.index t a * S1024x1280.size a ≤ (i a).val
      ∧ (i a).val < win0_3.index t a * S1024x1280.size a + S1024x1280.size a := by
  show i ∈ ((View.whole main_v4).slice (win0_3.rect t)).set ↔ _
  rw [View.set_slice_whole, Rect.mem_set_unit]
  exact Iff.rfl

/-- Every index of the output array is in the block of a point at which the block is written back. -/
theorem out_cover : ∀ i : S2048x6400.Idx, ∃ t : Fin cfg0.N, (cfg0.win 3).flush t = true
    ∧ i ∈ ((cfg0.win 3).blk t).view.set := by
  intro i
  have hi0 : (i 0).val < 2048 := (i 0).isLt
  have hi1 : (i 1).val < 6400 := (i 1).isLt
  obtain ⟨t, ht⟩ : ∃ t : Fin cfg0.N, t.val = 50 * ((i 0).val / 1024) + 10 * ((i 1).val / 1280) + 9 :=
    ⟨⟨50 * ((i 0).val / 1024) + 10 * ((i 1).val / 1280) + 9, (show _ < grid0.N by rw [N_0]; omega)⟩, rfl⟩
  refine ⟨t, (flush0_3 t).mpr (by omega), ?_⟩
  rw [mem_out_block]
  obtain ⟨-, -, -, -, -, -, e6, e7⟩ := idx_facts t
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1280 ≤ (i 1).val ∧ (i 1).val < win0_3.index t (1 : Fin 2) * 1280 + 1280
    omega

end Cert.KernelIdeal.Cover

end
-- ==== Proof.Ext.lean ====
/-
  A matrix read at natural-number coordinates, and sums over an initial segment of the naturals cut into blocks of 640.

  Reading a matrix "entry inside, zero outside" lets a contraction over the columns be written as a sum over a range
  of naturals; such a sum over `640 (k + 1)` terms is the sum over the first `640 k` plus one block of 640.
-/
import proofs.«143620_j20169166422772_2_alg».proof.Proof.Spec
import Mathlib.Algebra.BigOperators.Fin

noncomputable section

open scoped BigOperators

namespace Cert.Interact

open Idealize.ShloMosaic Idealize.ShloMosaic.ValueIdx

/-- A matrix read at natural-number coordinates: its entry inside, zero outside. -/
def ext {A B : ℕ} (f : Arr2 A B) (r κ : ℕ) : EReal := if h : r < A ∧ κ < B then f (ix2 ⟨r, h.1⟩ ⟨κ, h.2⟩) else 0

/-- Inside, the reading is the entry. -/
theorem ext_of_lt {A B : ℕ} (f : Arr2 A B) (r κ : ℕ) (hr : r < A) (hκ : κ < B) :
    ext f r κ = f (ix2 ⟨r, hr⟩ ⟨κ, hκ⟩) := by
  unfold ext
  rw [dif_pos ⟨hr, hκ⟩]

/-- The contraction of row `r` of `f` with row `s` of `g`, as a sum over the naturals below the common width. -/
theorem sum_range_ext {A A' B : ℕ} (f : Arr2 A B) (g : Arr2 A' B) (r s : ℕ) (hr : r < A) (hs : s < A') :
    ∑ κ ∈ Finset.range B, ext f r κ * ext g s κ = ∑ k : Fin B, f (ix2 ⟨r, hr⟩ k) * g (ix2 ⟨s, hs⟩ k) := by
  rw [Finset.sum_range (fun κ => ext f r κ * ext g s κ)]
  exact Finset.sum_congr rfl fun k _ => by rw [ext_of_lt f r k.val hr k.isLt, ext_of_lt g s k.val hs k.isLt]

/-- One more block of 640 terms. -/
theorem sum_range_block (h : ℕ → EReal) (k : ℕ) :
    ∑ κ ∈ Finset.range (640 * (k + 1)), h κ
      = (∑ κ ∈ Finset.range (640 * k), h κ) + ∑ l : Fin 640, h (640 * k + l.val) := by
  have e : 640 * (k + 1) = 640 * k + 640 := by omega
  rw [e, Finset.sum_range_add, Finset.sum_range (fun x => h (640 * k + x))]

/-- The first block: nothing before it. -/
theorem sum_range_first (h : ℕ → EReal) :
    ∑ κ ∈ Finset.range (640 * (0 + 1)), h κ = 0 + ∑ l : Fin 640, h (640 * 0 + l.val) := by
  have e : ∑ κ ∈ Finset.range (640 * 0), h κ = 0 := by rw [Nat.mul_zero, Finset.range_zero, Finset.sum_empty]
  rw [sum_range_block h 0, e]

end Cert.Interact

end
-- ==== Proof.Blocks.lean ====
/-
  What each window's block holds at a point of the grid, entry by entry.

  Point `t` of the 2 × 5 × 10 grid has row block `t / 50`, column block `(t / 10) % 5` and contraction block `t % 10`.
  A block's entry `(p, l)` is the array's entry at (block index × block extent + p, block index × block extent + l)
  on the two axes. Written with the array read at natural-number coordinates ("entry inside, zero outside"), the four
  windows read: the padded `x` at (row block, contraction block) in tiles 1024 × 640; the padded `w` at (column block,
  contraction block) in tiles 1280 × 640; the padded `x` again at (row block, column block) in tiles 1024 × 1280; and
  the output at (row block, column block) in tiles 1024 × 1280. All coordinates stay inside the arrays.
-/
import proofs.«143620_j20169166422772_2_alg».proof.Proof.Cover
import proofs.«143620_j20169166422772_2_alg».proof.Proof.Ext
import Idealize.ShloMosaic.Lib.ValueIdx

set_option maxRecDepth 16384

noncomputable section

namespace Cert.KernelIdeal.Blocks

open Cert.KernelIdeal Cert.KernelIdeal.Gen Cert.Interact Idealize.ShloMosaic Idealize.ShloMosaic.TcCoe Idealize.ShloMosaic.ValueIdx Idealize.SL.Sem

variable (m : (ℓ : Loc nD τ sig) → Buf (Elt Ideal) ℓ)

/-- The grid has 100 points. -/
theorem lt100 (t : Fin cfg0.N) : t.val < 100 := by
  have h : t.val < grid0.N := t.isLt
  rw [N_0] at h
  exact h

/-- Window 0 at point `t`: the block of the padded `x` at row block `t / 50`, contraction block `t % 10`. -/
theorem iblk0_apply (c : Dev nD) (t : Fin cfg0.N) (p : Fin 1024) (l : Fin 640) :
    (iblk m c 0 t : Vec Ideal S1024x640 .bf16) (ix2 p l)
      = ext (V m c main_v2 : Arr2 2048 6400) (1024 * (t.val / 50) + p.val) (640 * (t.val % 10) + l.val) := by
  have ht := lt100 t
  have hp := p.isLt
  have hl := l.isLt
  obtain ⟨e0, e1, -, -, -, -, -, -⟩ := Cover.idx_facts t
  unfold iblk
  rw [View.read_apply]
  show V m c main_v2 (((cfg0.win 0).blk t).view.emb (ix2 p l)) = _
  rw [ext_of_lt _ _ _ (by omega) (by omega)]
  refine congrArg _ (funext fun a => Fin.ext ?_)
  match a with
  | ⟨0, _⟩ => show win0_0.index t (0 : Fin 2) * 1024 + 1 * p.val = 1024 * (t.val / 50) + p.val; rw [e0]; omega
  | ⟨1, _⟩ => show win0_0.index t (1 : Fin 2) * 640 + 1 * l.val = 640 * (t.val % 10) + l.val; rw [e1]; omega

/-- Window 1 at point `t`: the block of the padded `w` at row block `(t / 10) % 5`, contraction block `t % 10`. -/
theorem iblk1_apply (c : Dev nD) (t : Fin cfg0.N) (q : Fin 1280) (l : Fin 640) :
    (iblk m c 1 t : Vec Ideal S1280x640 .bf16) (ix2 q l)
      = ext (V m c main_v3 : Arr2 6400 6400) (1280 * ((t.val / 10) % 5) + q.val) (640 * (t.val % 10) + l.val) := by
  have ht := lt100 t
  have hq := q.isLt
  have hl := l.isLt
  obtain ⟨-, -, e2, e3, -, -, -, -⟩ := Cover.idx_facts t
  unfold iblk
  rw [View.read_apply]
  show V m c main_v3 (((cfg0.win 1).blk t).view.emb (ix2 q l)) = _
  rw [ext_of_lt _ _ _ (by omega) (by omega)]
  refine congrArg _ (funext fun a => Fin.ext ?_)
  match a with
  | ⟨0, _⟩ => show win0_1.index t (0 : Fin 2) * 1280 + 1 * q.val = 1280 * ((t.val / 10) % 5) + q.val; rw [e2]; omega
  | ⟨1, _⟩ => show win0_1.index t (1 : Fin 2) * 640 + 1 * l.val = 640 * (t.val % 10) + l.val; rw [e3]; omega

/-- Window 2 at point `t`: the block of the padded `x` at row block `t / 50`, column block `(t / 10) % 5`. -/
theorem iblk2_apply (c : Dev nD) (t : Fin cfg0.N) (p : Fin 1024) (q : Fin 1280) :
    (iblk m c 2 t : Vec Ideal S1024x1280 .f32) (ix2 p q)
      = ext (V m c main_v0 : Arr2 2048 6400) (1024 * (t.val / 50) + p.val) (1280 * ((t.val / 10) % 5) + q.val) := by
  have ht := lt100 t
  have hp := p.isLt
  have hq := q.isLt
  obtain ⟨-, -, -, -, e4, e5, -, -⟩ := Cover.idx_facts t
  unfold iblk
  rw [View.read_apply]
  show V m c main_v0 (((cfg0.win 2).blk t).view.emb (ix2 p q)) = _
  rw [ext_of_lt _ _ _ (by omega) (by omega)]
  refine congrArg _ (funext fun a => Fin.ext ?_)
  match a with
  | ⟨0, _⟩ => show win0_2.index t (0 : Fin 2) * 1024 + 1 * p.val = 1024 * (t.val / 50) + p.val; rw [e4]; omega
  | ⟨1, _⟩ => show win0_2.index t (1 : Fin 2) * 1280 + 1 * q.val = 1280 * ((t.val / 10) % 5) + q.val; rw [e5]; omega

/-- The output window's block at point `t`, read off ANY array `P` of the output's shape: row block `t / 50`, column
    block `(t / 10) % 5`. -/
theorem out_block_read (P : Arr2 2048 6400) (t : Fin cfg0.N) (p : Fin 1024) (q : Fin 1280) :
    (((cfg0.win 3).blk t).view.read (Elt Ideal) P : Vec Ideal S1024x1280 .f32) (ix2 p q)
      = ext P (1024 * (t.val / 50) + p.val) (1280 * ((t.val / 10) % 5) + q.val) := by
  have ht := lt100 t
  have hp := p.isLt
  have hq := q.isLt
  obtain ⟨-, -, -, -, -, -, e6, e7⟩ := Cover.idx_facts t
  rw [View.read_apply]
  show P (((cfg0.win 3).blk t).view.emb (ix2 p q)) = _
  rw [ext_of_lt _ _ _ (by omega) (by omega)]
  refine congrArg _ (funext fun a => Fin.ext ?_)
  match a with
  | ⟨0, _⟩ => show win0_3.index t (0 : Fin 2) * 1024 + 1 * p.val = 1024 * (t.val / 50) + p.val; rw [e6]; omega
  | ⟨1, _⟩ => show win0_3.index t (1 : Fin 2) * 1280 + 1 * q.val = 1280 * ((t.val / 10) % 5) + q.val; rw [e7]; omega

end Cert.KernelIdeal.Blocks

end
-- ==== Proof.Accum.lean ====
/-
  The running block in closed form, and the region's result.

  Write `X` for the padded `x` the region reads (as the low-precision operand and as the full-precision one: the same
  numbers), `W` for the padded `w`. Grid point `n` works on row block `b = n / 50`, column block `j = (n / 10) % 5` and
  contraction block `k = n % 10`. By induction on the point, after point `n` the running block holds at (p, q) the partial
  contraction
        ∑_{κ < 640 (k + 1)} X(1024 b + p, κ) · W(1280 j + q, κ):
  a first point starts it from zero with its 640 terms, every later point of the run adds the next 640 terms. The last
  point of a run (k = 9) therefore completes the contraction over all 6400 columns and writes
        X(1024 b + p, 1280 j + q) · ∑_{κ < 6400} X(1024 b + p, κ) · W(1280 j + q, κ)
  to the output block (b, j) — the block of the one array `P` below. The output blocks tile the array, so after the
  run the result array is `P`.
-/
import proofs.«143620_j20169166422772_2_alg».proof.Proof.Steps
import proofs.«143620_j20169166422772_2_alg».proof.Proof.Payload
import proofs.«143620_j20169166422772_2_alg».proof.Proof.Blocks

set_option maxRecDepth 16384

noncomputable section

open scoped BigOperators

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen Cert.Interact

variable (m : (ℓ : Loc nD τ sig) → Buf (Elt Ideal) ℓ)

/-- The contraction of row `1024 b + p` of `X` with row `1280 j + q` of `W` over the first `K` columns. -/
def part (c : Dev nD) (b j K : ℕ) (p : Fin 1024) (q : Fin 1280) : EReal :=
  ∑ κ ∈ Finset.range K, ext (V m c main_v2 : Arr2 2048 6400) (1024 * b + p.val) κ * ext (V m c main_v3 : Arr2 6400 6400) (1280 * j + q.val) κ

/-- One step at an entry: what was there plus the point's 640 terms. -/
theorem step_apply (c : Dev nD) (t : Fin cfg0.N) (prev : Vec Ideal S1024x1280 .f32) (p : Fin 1024) (q : Fin 1280) :
    k0_pay2 (F := Ideal) prev (iblk m c 0 t) (iblk m c 1 t) (ix2 p q)
      = prev (ix2 p q) + ∑ l : Fin 640, ext (V m c main_v2 : Arr2 2048 6400) (1024 * (t.val / 50) + p.val) (640 * (t.val % 10) + l.val)
          * ext (V m c main_v3 : Arr2 6400 6400) (1280 * ((t.val / 10) % 5) + q.val) (640 * (t.val % 10) + l.val) := by
  refine (Payload.pay2_apply prev (iblk m c 0 t) (iblk m c 1 t) p q).trans ?_
  refine congrArg (prev (ix2 p q) + ·) (Finset.sum_congr rfl fun l _ => ?_)
  exact congrArg₂ (· * ·) (Blocks.iblk0_apply m c t p l) (Blocks.iblk1_apply m c t q l)

/-- THE RUNNING BLOCK after point `n`: the contraction over the columns the run has covered so far. -/
theorem acc_eq (c : Dev nD) : ∀ (n : ℕ) (hn : n < cfg0.N) (p : Fin 1024) (q : Fin 1280),
    (outsAt0 m c n hn).2 (ix2 p q) = part m c (n / 50) ((n / 10) % 5) (640 * (n % 10 + 1)) p q
  | 0, hn, p, q => by
    refine (congrFun (Steps.first m c ⟨0, hn⟩ rfl (by show ¬0 % 10 = 9; decide)) (ix2 p q)).trans ?_
    refine (step_apply m c ⟨0, hn⟩ (k0_pay1 (F := Ideal)) p q).trans ?_
    rw [Payload.pay1_apply]
    unfold part
    exact (sum_range_first (fun κ => ext (V m c main_v2 : Arr2 2048 6400) (1024 * (0 / 50) + p.val) κ * ext (V m c main_v3 : Arr2 6400 6400) (1280 * (0 / 10 % 5) + q.val) κ)).symm
  | n + 1, hn, p, q => by
    have hN : n + 1 < 100 := lt_of_lt_of_eq hn (show cfg0.N = 100 from N_0)
    by_cases h0 : (n + 1) % 10 = 0
    · have h1 : ¬(n + 1) % 10 = 9 := by omega
      refine (congrFun (Steps.first m c ⟨n + 1, hn⟩ h0 h1) (ix2 p q)).trans ?_
      refine (step_apply m c ⟨n + 1, hn⟩ (k0_pay1 (F := Ideal)) p q).trans ?_
      rw [Payload.pay1_apply]
      unfold part
      show _ = ∑ κ ∈ Finset.range (640 * ((n + 1) % 10 + 1)), _
      rw [h0]
      exact (sum_range_first (fun κ => ext (V m c main_v2 : Arr2 2048 6400) (1024 * ((n + 1) / 50) + p.val) κ * ext (V m c main_v3 : Arr2 6400 6400) (1280 * ((n + 1) / 10 % 5) + q.val) κ)).symm
    · have hstep : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 10 = 9
        · exact Steps.last m c ⟨n + 1, hn⟩ h0 h1
        · exact Steps.middle m c ⟨n + 1, hn⟩ h0 h1
      refine (congrFun hstep (ix2 p q)).trans ?_
      refine (step_apply m c ⟨n + 1, hn⟩ _ p q).trans ?_
      rw [acc_eq c n (Nat.lt_of_succ_lt hn) p q]
      unfold part
      have e1 : (n + 1) / 50 = n / 50 := by omega
      have e2 : (n + 1) / 10 % 5 = n / 10 % 5 := by omega
      have e3 : (n + 1) % 10 = n % 10 + 1 := by omega
      show _ = ∑ κ ∈ Finset.range (640 * ((n + 1) % 10 + 1)), _
      rw [e1, e2, e3]
      exact (sum_range_block (fun κ => ext (V m c main_v2 : Arr2 2048 6400) (1024 * (n / 50) + p.val) κ * ext (V m c main_v3 : Arr2 6400 6400) (1280 * (n / 10 % 5) + q.val) κ) (n % 10 + 1)).symm

/-- THE REGION'S RESULT: each entry of the padded `x` times its row's contraction with a row of the padded `w`. -/
def P (c : Dev nD) : Arr2 2048 6400 :=
  let X0 : Arr2 2048 6400 := V m c main_v0
  let X : Arr2 2048 6400 := V m c main_v2
  let W : Arr2 6400 6400 := V m c main_v3
  fun i => X0 i * ∑ k : Fin 6400, X (ix2 (i 0) k) * W (ix2 (i 1) k)

/-- What the last point of a run writes to its output block, at an entry, is `P` at the entry's place in the array. -/
theorem last_entry (c : Dev nD) (t : Fin cfg0.N) (h0 : ¬t.val % 10 = 0) (h9 : t.val % 10 = 9) (p : Fin 1024) (q : Fin 1280) :
    (outsAt0 m c t.val t.isLt).1 (ix2 p q) = ext (P m c) (1024 * (t.val / 50) + p.val) (1280 * ((t.val / 10) % 5) + q.val) := by
  have hN : t.val < 100 := lt_of_lt_of_eq t.isLt (show cfg0.N = 100 from N_0)
  refine (congrFun (Steps.last_out m c t h0 h9) (ix2 p q)).trans ?_
  refine (Payload.pay3_apply (iblk m c 2 t) _ (ix2 p q)).trans ?_
  rw [← congrFun (Steps.last m c t h0 h9) (ix2 p q), acc_eq m c t.val t.isLt p q, Blocks.iblk2_apply m c t p q]
  have hr : 1024 * (t.val / 50) + p.val < 2048 := by have := p.isLt; omega
  have hs : 1280 * ((t.val / 10) % 5) + q.val < 6400 := by have := q.isLt; omega
  rw [ext_of_lt (P m c) _ _ hr hs, ext_of_lt _ _ _ hr hs]
  unfold part
  rw [h9]
  show _ * ∑ κ ∈ Finset.range 6400, _ = _
  rw [sum_range_ext _ _ _ _ hr hs]
  rfl

/-- What a writing point writes back is its block of `P`. -/
theorem flushed_eq (c : Dev nD) (t : Fin cfg0.N) (hf : (cfg0.win 3).flush t = true) :
    (dats m 0 c).flushed 3 t = ((cfg0.win 3).blk t).view.read (Elt Ideal) (P m c) := by
  have h9 : t.val % 10 = 9 := (flush0_3 t).mp hf
  have h0 : ¬t.val % 10 = 0 := by omega
  show (cfg0.win 3).cut (grid0.coords t) ((dats m 0 c).after 3 t) = _
  rw [after0_3]
  funext y
  have hy : y = ix2 (n0 := 1024) (n1 := 1280) (y 0) (y 1) := eq_ix2 y
  rw [hy]
  exact (last_entry m c t h0 h9 (y 0) (y 1)).trans (Blocks.out_block_read (P m c) t (y 0) (y 1)).symm

/-- THE RESULT ARRAY after the run is `P`: every entry lies in the block of some writing point. -/
theorem final (c : Dev nD) : (dats m 0 c).arrAt 3 cfg0.N = P m c :=
  (dats m 0 c).arrAt_eq_of_cover 3 (P m c) (flushed_eq m c) Cover.out_cover

end Cert.KernelIdeal.Accum

end
-- ==== Proof.HostSide.lean ====
/-
  The kernel's host operations around its one region, read at an index.

  Before the region the batch is padded with 244 zero columns (to 6400 columns) and the interaction weights with 244 zero
  rows and 244 zero columns (to 6400 × 6400); both are also narrowed to a 16-bit format, which on extended reals changes
  nothing. So the region's three input arrays are xpad of the batch (twice) and wpad of the weights.

  After the region, with P the array the region produced: the linear head is the batch against the transposed linear
  weights plus the broadcast bias; it is multiplied against the first three columns of the last layer's weights; P is
  multiplied against the remaining columns padded with zeros; the two products and the broadcast last bias are added.
  Read at an index this is Kof P.
-/
import proofs.«143620_j20169166422772_2_alg».proof.Proof.Gen.KernelIdeal.Frame
import proofs.«143620_j20169166422772_2_alg».proof.Proof.Spec
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

set_option maxRecDepth 16384

noncomputable section

open scoped BigOperators

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## Zero padding read at an index

A padded array reads the operand wherever every coordinate lies inside the operand and reads the padding value elsewhere.
The padding value here is the integer zero converted to a float, which is the extended real zero. -/

/-- The integer zero converted to a float is the extended real zero, at every index of the scalar shape. -/
theorem zero_pad_value (k : S_.Idx) :
    (sitofp (F := Ideal) .f32 (constantI S_ 32 0#32) : S_.Idx → EReal) k = 0 := by
  show (((0#32 : BitVec 32).toInt : ℝ) : EReal) = 0
  simp

/-- Padding 244 columns behind a 2048 × 6156 array with a value that is zero gives xpad. -/
theorem pad_cols_2048 (x : S2048x6156.Idx → EReal) (v : S_.Idx → EReal) (hv : ∀ k, v k = 0)
    (h : S2048x6156.Pads (![0, 0] : Fin 2 → Nat) ![0, 244] ![0, 0] S2048x6400) (hu : 0 < S_.numel) :
    pad S2048x6400 ![0, 0] ![0, 244] ![0, 0] x v h hu = Cert.Interact.xpad x := by
  funext j
  obtain ⟨p, q, rfl⟩ : ∃ (p : Fin 2048) (q : Fin 6400), j = ix2 p q := ⟨j 0, j 1, eq_ix2 j⟩
  unfold Cert.Interact.xpad
  by_cases hq : q.val < 6156
  · rw [dif_pos (show ((ix2 p q : S2048x6400.Idx) 1).val < 6156 from hq)]
    exact pad_apply_of_inside _ _ _ x v h hu _ (ix2 p ⟨q.val, hq⟩) (by
      intro a
      match a with
      | ⟨0, _⟩ => show p.val = 0 + p.val * (0 + 1); omega
      | ⟨1, _⟩ => show q.val = 0 + q.val * (0 + 1); omega)
  · rw [dif_neg (show ¬ ((ix2 p q : S2048x6400.Idx) 1).val < 6156 from hq)]
    rw [pad_apply_of_not_inside _ _ _ x v h hu _ (1 : Fin 2) (by
      intro hin
      have h3 : (q.val - 0) / (0 + 1) < 6156 := hin.2.2
      omega)]
    exact hv _

/-- Before the region: the f32 padded batch is xpad of the batch. -/
theorem V_v0 (c : Dev nD) :
    (V m c main_v0 : S2048x6400.Idx → EReal) = Cert.Interact.xpad (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact pad_cols_2048 _ _ zero_pad_value pads_S2048x6156_S2048x6400_000_02440 h_S_

/-- Before the region: the bf16 image of the padded batch is xpad of the batch (the narrowing is the identity on
    extended reals). -/
theorem V_v2 (c : Dev nD) :
    (V m c main_v2 : S2048x6400.Idx → EReal) = Cert.Interact.xpad (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact pad_cols_2048 _ _ zero_pad_value pads_S2048x6156_S2048x6400_000_02440 h_S_

/-- Padding 244 rows below and 244 columns behind a 6156 × 6156 array with a value that is zero gives wpad. -/
theorem pad_6156 (w : S6156x6156.Idx → EReal) (v : S_.Idx → EReal) (hv : ∀ k, v k = 0)
    (h : S6156x6156.Pads (![0, 0] : Fin 2 → Nat) ![244, 244] ![0, 0] S6400x6400) (hu : 0 < S_.numel) :
    pad S6400x6400 ![0, 0] ![244, 244] ![0, 0] w v h hu = Cert.Interact.wpad w := by
  funext j
  obtain ⟨p, q, rfl⟩ : ∃ (p : Fin 6400) (q : Fin 6400), j = ix2 p q := ⟨j 0, j 1, eq_ix2 j⟩
  unfold Cert.Interact.wpad
  by_cases hpq : p.val < 6156 ∧ q.val < 6156
  · rw [dif_pos (show ((ix2 p q : S6400x6400.Idx) 0).val < 6156 ∧ ((ix2 p q : S6400x6400.Idx) 1).val < 6156 from hpq)]
    exact pad_apply_of_inside _ _ _ w v h hu _ (ix2 ⟨p.val, hpq.1⟩ ⟨q.val, hpq.2⟩) (by
      intro a
      match a with
      | ⟨0, _⟩ => show p.val = 0 + p.val * (0 + 1); omega
      | ⟨1, _⟩ => show q.val = 0 + q.val * (0 + 1); omega)
  · rw [dif_neg (show ¬ (((ix2 p q : S6400x6400.Idx) 0).val < 6156 ∧ ((ix2 p q : S6400x6400.Idx) 1).val < 6156) from hpq)]
    by_cases hp : p.val < 6156
    · have hq : ¬ q.val < 6156 := fun hq => hpq ⟨hp, hq⟩
      rw [pad_apply_of_not_inside _ _ _ w v h hu _ (1 : Fin 2) (by
        intro hin
        have h3 : (q.val - 0) / (0 + 1) < 6156 := hin.2.2
        omega)]
      exact hv _
    · rw [pad_apply_of_not_inside _ _ _ w v h hu _ (0 : Fin 2) (by
        intro hin
        have h3 : (p.val - 0) / (0 + 1) < 6156 := hin.2.2
        omega)]
      exact hv _

/-- Before the region: the bf16 image of the padded interaction weights is wpad of the weights. -/
theorem V_v3 (c : Dev nD) :
    (V m c main_v3 : S6400x6400.Idx → EReal) = Cert.Interact.wpad (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact pad_6156 _ _ zero_pad_value pads_S6156x6156_S6400x6400_02440_02440 h_S_

/-- The product dotLin read at an index: row b of the left operand against column o of the right one. -/
theorem dotLin_apply (x : S2048x6156.Idx → EReal) (y : S6156x3.Idx → EReal) (b : Fin 2048) (o : Fin 3) :
    (Host.dotGeneral (F := Ideal) dot_S2048x6156_S6156x3_S2048x3_1_0_0_1_n_n none (φ₁ := .f32) (φ₂ := .f32) x y : S2048x3.Idx → EReal) (ix2 b o)
      = ∑ k : Fin 6156, x (ix2 b k) * y (ix2 k o) := by
  simp only [Host.dotGeneral]
  rw [Ideal.dotGeneral_apply, ← Equiv.sum_comp (contrEquiv1 dot_S2048x6156_S6156x3_S2048x3_1_0_0_1_n_n 6156 rfl rfl).symm]
  refine Finset.sum_congr rfl fun k _ => ?_
  have hk := contrEquiv1_symm_val dot_S2048x6156_S6156x3_S2048x3_1_0_0_1_n_n 6156 rfl rfl k
  have el : dot_S2048x6156_S6156x3_S2048x3_1_0_0_1_n_n.lhsIdx (ix2 b o) ((contrEquiv1 dot_S2048x6156_S6156x3_S2048x3_1_0_0_1_n_n 6156 rfl rfl).symm k) = ix2 b k := funext fun a => Fin.ext (by
    match a with
    | ⟨0, _⟩ =>
      show (dot_S2048x6156_S6156x3_S2048x3_1_0_0_1_n_n.lhsIdx (ix2 b o) _ 0).val = b.val
      unfold DotDims.lhsIdx
      rw [dif_neg (show ¬(0 : Fin S2048x6156.rank) ∈ dot_S2048x6156_S6156x3_S2048x3_1_0_0_1_n_n.lhsBatch by decide), dif_pos (show (0 : Fin S2048x6156.rank) ∈ dot_S2048x6156_S6156x3_S2048x3_1_0_0_1_n_n.lhsNonContracting by decide)]
      rfl
    | ⟨1, _⟩ => exact (dot_S2048x6156_S6156x3_S2048x3_1_0_0_1_n_n.lhsIdx_val_of_single rfl _ _).trans hk)
  have er : dot_S2048x6156_S6156x3_S2048x3_1_0_0_1_n_n.rhsIdx (ix2 b o) ((contrEquiv1 dot_S2048x6156_S6156x3_S2048x3_1_0_0_1_n_n 6156 rfl rfl).symm k) = ix2 k o := funext fun a => Fin.ext (by
    match a with
    | ⟨0, _⟩ => exact (dot_S2048x6156_S6156x3_S2048x3_1_0_0_1_n_n.rhsIdx_val_of_single rfl _ _).trans hk
    | ⟨1, _⟩ =>
      show (dot_S2048x6156_S6156x3_S2048x3_1_0_0_1_n_n.rhsIdx (ix2 b o) _ 1).val = o.val
      unfold DotDims.rhsIdx
      rw [dif_neg (show ¬(1 : Fin S6156x3.rank) ∈ dot_S2048x6156_S6156x3_S2048x3_1_0_0_1_n_n.rhsBatch by decide), dif_pos (show (1 : Fin S6156x3.rank) ∈ dot_S2048x6156_S6156x3_S2048x3_1_0_0_1_n_n.rhsNonContracting by decide)]
      rfl)
  rw [el, er]

/-- The product dotHead read at an index: row b of the left operand against column o of the right one. -/
theorem dotHead_apply (x : S2048x3.Idx → EReal) (y : S3x3.Idx → EReal) (b : Fin 2048) (o : Fin 3) :
    (Host.dotGeneral (F := Ideal) dot_S2048x3_S3x3_S2048x3_1_0_0_1_n_n none (φ₁ := .f32) (φ₂ := .f32) x y : S2048x3.Idx → EReal) (ix2 b o)
      = ∑ k : Fin 3, x (ix2 b k) * y (ix2 k o) := by
  simp only [Host.dotGeneral]
  rw [Ideal.dotGeneral_apply, ← Equiv.sum_comp (contrEquiv1 dot_S2048x3_S3x3_S2048x3_1_0_0_1_n_n 3 rfl rfl).symm]
  refine Finset.sum_congr rfl fun k _ => ?_
  have hk := contrEquiv1_symm_val dot_S2048x3_S3x3_S2048x3_1_0_0_1_n_n 3 rfl rfl k
  have el : dot_S2048x3_S3x3_S2048x3_1_0_0_1_n_n.lhsIdx (ix2 b o) ((contrEquiv1 dot_S2048x3_S3x3_S2048x3_1_0_0_1_n_n 3 rfl rfl).symm k) = ix2 b k := funext fun a => Fin.ext (by
    match a with
    | ⟨0, _⟩ =>
      show (dot_S2048x3_S3x3_S2048x3_1_0_0_1_n_n.lhsIdx (ix2 b o) _ 0).val = b.val
      unfold DotDims.lhsIdx
      rw [dif_neg (show ¬(0 : Fin S2048x3.rank) ∈ dot_S2048x3_S3x3_S2048x3_1_0_0_1_n_n.lhsBatch by decide), dif_pos (show (0 : Fin S2048x3.rank) ∈ dot_S2048x3_S3x3_S2048x3_1_0_0_1_n_n.lhsNonContracting by decide)]
      rfl
    | ⟨1, _⟩ => exact (dot_S2048x3_S3x3_S2048x3_1_0_0_1_n_n.lhsIdx_val_of_single rfl _ _).trans hk)
  have er : dot_S2048x3_S3x3_S2048x3_1_0_0_1_n_n.rhsIdx (ix2 b o) ((contrEquiv1 dot_S2048x3_S3x3_S2048x3_1_0_0_1_n_n 3 rfl rfl).symm k) = ix2 k o := funext fun a => Fin.ext (by
    match a with
    | ⟨0, _⟩ => exact (dot_S2048x3_S3x3_S2048x3_1_0_0_1_n_n.rhsIdx_val_of_single rfl _ _).trans hk
    | ⟨1, _⟩ =>
      show (dot_S2048x3_S3x3_S2048x3_1_0_0_1_n_n.rhsIdx (ix2 b o) _ 1).val = o.val
      unfold DotDims.rhsIdx
      rw [dif_neg (show ¬(1 : Fin S3x3.rank) ∈ dot_S2048x3_S3x3_S2048x3_1_0_0_1_n_n.rhsBatch by decide), dif_pos (show (1 : Fin S3x3.rank) ∈ dot_S2048x3_S3x3_S2048x3_1_0_0_1_n_n.rhsNonContracting by decide)]
      rfl)
  rw [el, er]

/-- The product dotInter read at an index: row b of the left operand against column o of the right one. -/
theorem dotInter_apply (x : S2048x6400.Idx → EReal) (y : S6400x3.Idx → EReal) (b : Fin 2048) (o : Fin 3) :
    (Host.dotGeneral (F := Ideal) dot_S2048x6400_S6400x3_S2048x3_1_0_0_1_n_n none (φ₁ := .f32) (φ₂ := .f32) x y : S2048x3.Idx → EReal) (ix2 b o)
      = ∑ k : Fin 6400, x (ix2 b k) * y (ix2 k o) := by
  simp only [Host.dotGeneral]
  rw [Ideal.dotGeneral_apply, ← Equiv.sum_comp (contrEquiv1 dot_S2048x6400_S6400x3_S2048x3_1_0_0_1_n_n 6400 rfl rfl).symm]
  refine Finset.sum_congr rfl fun k _ => ?_
  have hk := contrEquiv1_symm_val dot_S2048x6400_S6400x3_S2048x3_1_0_0_1_n_n 6400 rfl rfl k
  have el : dot_S2048x6400_S6400x3_S2048x3_1_0_0_1_n_n.lhsIdx (ix2 b o) ((contrEquiv1 dot_S2048x6400_S6400x3_S2048x3_1_0_0_1_n_n 6400 rfl rfl).symm k) = ix2 b k := funext fun a => Fin.ext (by
    match a with
    | ⟨0, _⟩ =>
      show (dot_S2048x6400_S6400x3_S2048x3_1_0_0_1_n_n.lhsIdx (ix2 b o) _ 0).val = b.val
      unfold DotDims.lhsIdx
      rw [dif_neg (show ¬(0 : Fin S2048x6400.rank) ∈ dot_S2048x6400_S6400x3_S2048x3_1_0_0_1_n_n.lhsBatch by decide), dif_pos (show (0 : Fin S2048x6400.rank) ∈ dot_S2048x6400_S6400x3_S2048x3_1_0_0_1_n_n.lhsNonContracting by decide)]
      rfl
    | ⟨1, _⟩ => exact (dot_S2048x6400_S6400x3_S2048x3_1_0_0_1_n_n.lhsIdx_val_of_single rfl _ _).trans hk)
  have er : dot_S2048x6400_S6400x3_S2048x3_1_0_0_1_n_n.rhsIdx (ix2 b o) ((contrEquiv1 dot_S2048x6400_S6400x3_S2048x3_1_0_0_1_n_n 6400 rfl rfl).symm k) = ix2 k o := funext fun a => Fin.ext (by
    match a with
    | ⟨0, _⟩ => exact (dot_S2048x6400_S6400x3_S2048x3_1_0_0_1_n_n.rhsIdx_val_of_single rfl _ _).trans hk
    | ⟨1, _⟩ =>
      show (dot_S2048x6400_S6400x3_S2048x3_1_0_0_1_n_n.rhsIdx (ix2 b o) _ 1).val = o.val
      unfold DotDims.rhsIdx
      rw [dif_neg (show ¬(1 : Fin S6400x3.rank) ∈ dot_S2048x6400_S6400x3_S2048x3_1_0_0_1_n_n.rhsBatch by decide), dif_pos (show (1 : Fin S6400x3.rank) ∈ dot_S2048x6400_S6400x3_S2048x3_1_0_0_1_n_n.rhsNonContracting by decide)]
      rfl)
  rw [el, er]

/-! ## The layout operations of the tail read at an index -/

/-- The transposed linear weights at (k, c) are the weights at (c, k). -/
theorem tr_lw_apply (lw : S3x6156.Idx → EReal) (h : S3x6156.Transposes [1, 0] S6156x3) (k : Fin 6156) (c : Fin 3) :
    transpose S6156x3 [1, 0] lw h (ix2 k c) = lw (ix2 c k) :=
  transpose_apply [1, 0] lw h (ix2 k c) (ix2 c k) (fun b => match b with
    | ⟨0, _⟩ => rfl
    | ⟨1, _⟩ => rfl)

/-- A 3 × 3 transpose at (k, o) is the operand at (o, k). -/
theorem tr_33_apply (y : S3x3.Idx → EReal) (h : S3x3.Transposes [1, 0] S3x3) (k : Fin 3) (o : Fin 3) :
    transpose S3x3 [1, 0] y h (ix2 k o) = y (ix2 o k) :=
  transpose_apply [1, 0] y h (ix2 k o) (ix2 o k) (fun b => match b with
    | ⟨0, _⟩ => rfl
    | ⟨1, _⟩ => rfl)

/-- A bias vector broadcast first to one row and then to 2048 rows reads the vector at the column. -/
theorem bias_apply (v : S3.Idx → EReal) (h1 : S3.BroadcastsInDim S1x3 (![1] : Fin 1 → Fin S1x3.rank))
    (h2 : S1x3.BroadcastsInDim S2048x3 (![0, 1] : Fin 2 → Fin S2048x3.rank)) (b : Fin 2048) (c : Fin 3) :
    broadcastInDim S2048x3 ![0, 1] h2 (broadcastInDim S1x3 ![1] h1 v) (ix2 b c) = v (ix1 c) := by
  rw [broadcastInDim_apply _ h2 _ (ix2 b c) (ix2 (0 : Fin 1) c) (fun a => match a with
    | ⟨0, _⟩ => by show 0 = if (1 : Nat) = 1 then 0 else b.val; rw [if_pos rfl]
    | ⟨1, _⟩ => by show c.val = if (3 : Nat) = 1 then 0 else c.val; rw [if_neg (by decide)])]
  exact broadcastInDim_apply _ h1 v (ix2 (0 : Fin 1) c) (ix1 c) (fun a => match a with
    | ⟨0, _⟩ => by show c.val = if (3 : Nat) = 1 then 0 else c.val; rw [if_neg (by decide)])

/-- The first three columns of the last layer's weights. -/
theorem slice_head_apply (fw : S3x6159.Idx → EReal) (h : S3x6159.Slices ![0, 0] S3x3) (o : Fin 3) (k : Fin 3) :
    extractStridedSlice S3x3 ![0, 0] fw h (ix2 o k) = fw (ix2 o ⟨k.val, by have := k.isLt; omega⟩) :=
  extractStridedSlice_apply ![0, 0] fw h (ix2 o k) (ix2 o ⟨k.val, by have := k.isLt; omega⟩) (fun a => match a with
    | ⟨0, _⟩ => by show o.val = 0 + o.val; omega
    | ⟨1, _⟩ => by show k.val = 0 + k.val; omega)

/-- The remaining columns of the last layer's weights, padded with zeros, are fwpad. -/
theorem pad_rest (fw : S3x6159.Idx → EReal) (hs : S3x6159.Slices ![0, 3] S3x6156) (v : S_.Idx → EReal) (hv : ∀ k, v k = 0)
    (h : S3x6156.Pads (![0, 0] : Fin 2 → Nat) ![0, 244] ![0, 0] S3x6400) (hu : 0 < S_.numel) :
    pad S3x6400 ![0, 0] ![0, 244] ![0, 0] (extractStridedSlice S3x6156 ![0, 3] fw hs) v h hu = Cert.Interact.fwpad fw := by
  funext j
  obtain ⟨o, q, rfl⟩ : ∃ (o : Fin 3) (q : Fin 6400), j = ix2 o q := ⟨j 0, j 1, eq_ix2 j⟩
  unfold Cert.Interact.fwpad
  by_cases hq : q.val < 6156
  · rw [dif_pos (show ((ix2 o q : S3x6400.Idx) 1).val < 6156 from hq)]
    rw [pad_apply_of_inside _ _ _ _ v h hu _ (ix2 o ⟨q.val, hq⟩) (by
      intro a
      match a with
      | ⟨0, _⟩ => show o.val = 0 + o.val * (0 + 1); omega
      | ⟨1, _⟩ => show q.val = 0 + q.val * (0 + 1); omega)]
    exact extractStridedSlice_apply ![0, 3] fw hs (ix2 o ⟨q.val, hq⟩) _ (fun a => match a with
      | ⟨0, _⟩ => by show o.val = 0 + o.val; omega
      | ⟨1, _⟩ => by show 3 + q.val = 3 + q.val; rfl)
  · rw [dif_neg (show ¬ ((ix2 o q : S3x6400.Idx) 1).val < 6156 from hq)]
    rw [pad_apply_of_not_inside _ _ _ _ v h hu _ (1 : Fin 2) (by
      intro hin
      have h3 : (q.val - 0) / (0 + 1) < 6156 := hin.2.2
      omega)]
    exact hv _

/-! ## The tail as one function of the region's result and the arguments -/

/-- The operations after the region, composed: the linear head (batch against transposed linear weights, plus bias) against
    the first three columns of the last weights; the region's result against the padded remaining columns; the two added,
    plus the last bias. -/
def tailFn (P : S2048x6400.Idx → EReal) (x : S2048x6156.Idx → EReal) (lw : S3x6156.Idx → EReal) (lb : S3.Idx → EReal)
    (fw : S3x6159.Idx → EReal) (fb : S3.Idx → EReal) : S2048x3.Idx → EReal :=
  addf (F := Ideal) (φ := .f32)
    (addf (F := Ideal) (φ := .f32)
      (Host.dotGeneral (F := Ideal) dot_S2048x3_S3x3_S2048x3_1_0_0_1_n_n none (φ₁ := .f32) (φ₂ := .f32)
        (addf (F := Ideal) (φ := .f32)
          (Host.dotGeneral (F := Ideal) dot_S2048x6156_S6156x3_S2048x3_1_0_0_1_n_n none (φ₁ := .f32) (φ₂ := .f32) x
            (transpose S6156x3 [1, 0] lw transposes_S3x6156_S6156x3_1_0))
          (broadcastInDim S2048x3 ![0, 1] bcast_S1x3_S2048x3_0_1 (broadcastInDim S1x3 ![1] bcast_S3_S1x3_1 lb)))
        (transpose S3x3 [1, 0] (extractStridedSlice S3x3 ![0, 0] fw slices_S3x6159_S3x3_0_0) transposes_S3x3_S3x3_1_0))
      (Host.dotGeneral (F := Ideal) dot_S2048x6400_S6400x3_S2048x3_1_0_0_1_n_n none (φ₁ := .f32) (φ₂ := .f32) P
        (transpose S6400x3 [1, 0]
          (pad S3x6400 ![0, 0] ![0, 244] ![0, 0] (extractStridedSlice S3x6156 ![0, 3] fw slices_S3x6159_S3x6156_0_3)
            (sitofp (F := Ideal) .f32 (constantI S_ 32 0#32)) pads_S3x6156_S3x6400_000_02440 h_S_)
          transposes_S3x6400_S6400x3_1_0)))
    (broadcastInDim S2048x3 ![0, 1] bcast_S1x3_S2048x3_0_1 (broadcastInDim S1x3 ![1] bcast_S3_S1x3_1 fb))

/-- Read at an index, the composed tail is the last layer as the kernel arranges it. -/
theorem tailFn_eq (P : S2048x6400.Idx → EReal) (x : S2048x6156.Idx → EReal) (lw : S3x6156.Idx → EReal) (lb : S3.Idx → EReal)
    (fw : S3x6159.Idx → EReal) (fb : S3.Idx → EReal) :
    tailFn P x lw lb fw fb = Cert.Interact.Kof P x lw lb fw fb := by
  funext i
  obtain ⟨b, o, rfl⟩ : ∃ (b : Fin 2048) (o : Fin 3), i = ix2 b o := ⟨i 0, i 1, eq_ix2 i⟩
  unfold tailFn Cert.Interact.Kof
  rw [addf_apply, addf_apply, dotHead_apply, dotInter_apply, bias_apply, pad_rest _ _ _ zero_pad_value]
  congr 1
  congr 1
  · refine Finset.sum_congr rfl fun c _ => ?_
    rw [addf_apply, dotLin_apply, bias_apply, tr_33_apply, slice_head_apply]
    unfold Cert.Interact.lin
    congr 1
    congr 1
    refine Finset.sum_congr rfl fun k _ => ?_
    rw [tr_lw_apply]

/-! ## The tail of the program -/

set_option maxHeartbeats 1000000 in
/-- The operations after the region, run from any contents, leave the composed tail of the contents they read. -/
theorem tail_term (W : Valuation τ sig (Elt Ideal)) :
    (StableHlo.after (List.flatten [hostOps1, hostOps1_1, hostOps1_2]) W (Proc.devRef .tc main_v20) : S2048x3.Idx → EReal)
      = tailFn (W (Proc.devRef .tc main_v4)) (W (Proc.devRef .tc main_arg0)) (W (Proc.devRef .tc main_arg1))
          (W (Proc.devRef .tc main_arg2)) (W (Proc.devRef .tc main_arg4)) (W (Proc.devRef .tc main_arg5)) := by
  simp only [Gen.hostOps1, Gen.hostOps1_1, Gen.hostOps1_2, List.flatten_cons, List.flatten_nil, List.append_nil, List.cons_append, List.nil_append]
  after_results
  rfl

/-- After the region: with P the array the region produced, the program's result is the last layer over P. -/
theorem tail_eq (c : Dev nD) (P : S2048x6400.Idx → EReal)
    (hP : ((dats m 0 c).arrAt 3 cfg0.N : S2048x6400.Idx → EReal) = P) :
    (Pipeline.afterTail₀ cfgs (dats m) 0 (V0 m) [hostOps1, hostOps1_1, hostOps1_2] c main_v20 : S2048x3.Idx → EReal)
      = Cert.Interact.Kof P (m ((c : Thread nD τ).loc main_arg0)) (m ((c : Thread nD τ).loc main_arg1))
          (m ((c : Thread nD τ).loc main_arg2)) (m ((c : Thread nD τ).loc main_arg4)) (m ((c : Thread nD τ).loc main_arg5)) := by
  unfold Pipeline.afterTail₀
  rw [tail_term, tailFn_eq]
  have h4 : (Pipeline.withArrays (cfgs 0).spec c (V0 m c) (fun w => (dats m 0 c).arrAt w (cfgs 0).N) (Proc.devRef .tc main_v4)
      : S2048x6400.Idx → EReal) = P :=
    (Pipeline.withArrays_arr spec0 launch0.win.arr_inj c _ _ 3).trans hP
  have h0 := (Pipeline.withArrays_of_ne (cfgs 0).spec c (V0 m c) (fun w => (dats m 0 c).arrAt w (cfgs 0).N) main_arg0
    (by exact (by decide : ∀ w, Pipeline.arrRef spec0 w ≠ main_arg0))).trans (V_main_arg0 m c)
  have h1 := (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)
  have h2 := (Pipeline.withArrays_of_ne (cfgs 0).spec c (V0 m c) (fun w => (dats m 0 c).arrAt w (cfgs 0).N) main_arg2
    (by exact (by decide : ∀ w, Pipeline.arrRef spec0 w ≠ main_arg2))).trans (V_main_arg2 m c)
  have h4' := (Pipeline.withArrays_of_ne (cfgs 0).spec c (V0 m c) (fun w => (dats m 0 c).arrAt w (cfgs 0).N) main_arg4
    (by exact (by decide : ∀ w, Pipeline.arrRef spec0 w ≠ main_arg4))).trans (V_main_arg4 m c)
  have h5 := (Pipeline.withArrays_of_ne (cfgs 0).spec c (V0 m c) (fun w => (dats m 0 c).arrAt w (cfgs 0).N) main_arg5
    (by exact (by decide : ∀ w, Pipeline.arrRef spec0 w ≠ main_arg5))).trans (V_main_arg5 m c)
  rw [h4, h0, h1, h2, h4', h5]

end Cert.KernelIdeal.HostSide
end
-- ==== Proof.KernelValue.lean ====
/-
  The kernel's run, read as a value.

  The region leaves the padded interactions in its result array (the running contraction completed block by block),
  the region's three operands are the zero-padded `x` (twice) and the zero-padded `w`, and the operations after the
  region apply the last layer in the kernel's arrangement. Put together: every execution of the kernel ends with its
  result at `K` of the six arguments, the arguments unchanged.
-/
import proofs.«143620_j20169166422772_2_alg».proof.Proof.Accum
import proofs.«143620_j20169166422772_2_alg».proof.Proof.HostSide

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Interact

variable (m : (ℓ : Loc nD τ sig) → Buf (Elt Ideal) ℓ) (ρ : Dev nD → PrngReg)

/-- The region's result is the padded interactions of the arguments `x` and `w`. -/
theorem region_eq (c : Dev nD) : Accum.P m c = ipad (m ((c : Thread nD τ).loc main_arg0)) (m ((c : Thread nD τ).loc main_arg3)) := by
  unfold Accum.P ipad
  rw [HostSide.V_v0 m c, HostSide.V_v2 m c, HostSide.V_v3 m c]

/-- The kernel's result buffer after the operations that follow the region. -/
theorem value (c : Dev nD) :
    (Pipeline.afterTail₀ cfgs (dats m) 0 (V0 m) [hostOps1, hostOps1_1, hostOps1_2] c main_v20 : S2048x3.Idx → EReal)
      = K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (HostSide.tail_eq m c (Accum.P m c) (Accum.final m c)).trans ?_
  rw [region_eq]
  rfl

/-- THE RUN: the result at `K` of the arguments, the arguments as launched. -/
theorem run : θ_run defs (onTc (τ := τ) (main (F := Ideal))) ⟨m, fun _ => 0, ρ⟩ fun r => ∀ c : Dev nD,
      r.2.mem ((c : Thread nD τ).loc main_v20) = K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).2 main_v20 (Pipeline.mem_restRefs_of main_v20 (by decide) (by decide))).trans (value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelValue

end
-- ==== Proof.lean ====
/-
  The certificate: a logistic regression with pairwise feature interactions,
      logits = concat(x · lin_wᵀ + lin_b, x ∘ (x · w_intᵀ)) · fin_wᵀ + fin_b,
  computed by a kernel that pads `x` and `w_int` with zeros from 6156 to 6400 columns, accumulates the padded
  interaction product block by block over a 2 × 5 × 10 grid, and applies the last layer split into the linear head's
  three columns and the padded interactions — against the plain reference.

  Over the extended reals both are one function of the six arguments. The modules, in order:
    Spec        the two arrangements `K` (the kernel's) and `G` (the reference's) as plain formulas;
    Algebra     `K = G`: the padding only adds products with an exact zero, and the last layer's sum over 6159 columns is
                the sum over its first 3 plus the sum over the other 6156 (no finiteness is used);
    RefIsG      the reference's operations, read index by index, are `G`;
    Cases, Payload, Steps    one step of the kernel body as values: reset, accumulate a 1024 × 640 by 640 × 1280 product,
                write the entrywise product at the end of a run;
    Ext, Cover, Blocks       the blocks the grid points read and write, as places in the whole arrays;
    Accum       by induction on the grid point the running block is the partial contraction, so the region's result array
                is the padded interactions;
    HostSide    the operations before the region are the zero paddings, those after it the last layer;
    KernelValue the kernel's run ends at `K` of the arguments.
  The three frames are the runs with the result dropped; the idealization changed no operation, so `preserves` is trivial.
-/
import proofs.«143620_j20169166422772_2_alg».proof.Defs
import proofs.«143620_j20169166422772_2_alg».proof.Proof.Gen.Kernel
import proofs.«143620_j20169166422772_2_alg».proof.Proof.Gen.Kernel.Frame
import proofs.«143620_j20169166422772_2_alg».proof.Proof.Gen.KernelIdeal
import proofs.«143620_j20169166422772_2_alg».proof.Proof.Gen.KernelIdeal.Frame
import proofs.«143620_j20169166422772_2_alg».proof.Proof.Gen.ReferenceIdeal
import proofs.«143620_j20169166422772_2_alg».proof.Proof.Gen.ReferenceIdeal.Run
import proofs.«143620_j20169166422772_2_alg».proof.Proof.Gen.ReferenceIdeal.Read
import proofs.«143620_j20169166422772_2_alg».proof.Proof.Gen.Pre_finite_inputs
import proofs.«143620_j20169166422772_2_alg».proof.Proof.Algebra
import proofs.«143620_j20169166422772_2_alg».proof.Proof.RefIsG
import proofs.«143620_j20169166422772_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments the kernel ends at `K` of them and the reference at `G` of them:
    one function. -/
theorem algebraic : Cert.algebraic_KernelIdeal_ReferenceIdeal := by
  intro m ρ m' ρ' _ hagree
  refine ⟨fun c => Cert.Interact.K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2.1, (hagree c).2.2.2.2.2]
  exact (Cert.Interact.K_eq_G _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
